-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_sqrt_dim" .f32 0x3D3504F3#32 ((524288 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x512 : Shape := ⟨3, ![32, 16, 512]⟩
abbrev S32x8192x512 : Shape := ⟨3, ![32, 8192, 512]⟩
abbrev S32x1x8192 : Shape := ⟨3, ![32, 1, 8192]⟩
abbrev S_ : Shape := ⟨0, ![]⟩
abbrev S32x1x512 : Shape := ⟨3, ![32, 1, 512]⟩
abbrev S32x1 : Shape := ⟨2, ![32, 1]⟩
abbrev S32x1x1 : Shape := ⟨3, ![32, 1, 1]⟩

class Facts : Prop where
  bcast_S_S32x16x512 : S_.BroadcastsInDim S32x16x512 (![] : Fin 0 → Fin S32x16x512.rank)
  reducesTo_S32x16x512_S_d0_1_2 : S32x16x512.ReducesTo [0, 1, 2] S_
  h_S_ : 0 < S_.numel
  bcast_S_S32x8192x512 : S_.BroadcastsInDim S32x8192x512 (![] : Fin 0 → Fin S32x8192x512.rank)
  reducesTo_S32x8192x512_S_d0_1_2 : S32x8192x512.ReducesTo [0, 1, 2] S_
  bcast_S_S32x1x8192 : S_.BroadcastsInDim S32x1x8192 (![] : Fin 0 → Fin S32x1x8192.rank)
  reducesTo_S32x1x8192_S_d0_1_2 : S32x1x8192.ReducesTo [0, 1, 2] S_
  slices_S32x16x512_S32x1x512_0_0_0 : S32x16x512.Slices ![0, 0, 0] S32x1x512
  reducesTo_S32x1x8192_S32x1_d2 : S32x1x8192.ReducesTo [2] S32x1
  bcast_S_S32x1 : S_.BroadcastsInDim S32x1 (![] : Fin 0 → Fin S32x1.rank)
  bcast_S32x1_S32x1x1_0_1 : S32x1.BroadcastsInDim S32x1x1 (![0, 1] : Fin 2 → Fin S32x1x1.rank)
  bcast_S32x1x1_S32x1x8192_0_1_2 : S32x1x1.BroadcastsInDim S32x1x8192 (![0, 1, 2] : Fin 3 → Fin S32x1x8192.rank)
  bcast_S_S32x1x1 : S_.BroadcastsInDim S32x1x1 (![] : Fin 0 → Fin S32x1x1.rank)
  reducesTo_S32x1x1_S_d0_1_2 : S32x1x1.ReducesTo [0, 1, 2] S_
  dot_S32x1x512_S32x8192x512_S32x1x8192_2_2_1_1_0_0_wf : DotDims.WF S32x1x512 S32x8192x512 S32x1x8192 [2] [2] [1] [1] [0] [0]

variable [Facts]

def dot_S32x1x512_S32x8192x512_S32x1x8192_2_2_1_1_0_0 : DotDims S32x1x512 S32x8192x512 S32x1x8192 where
  lhsContracting := [2]
  rhsContracting := [2]
  lhsNonContracting := [1]
  rhsNonContracting := [1]
  lhsBatch := [0]
  rhsBatch := [0]
  wf := dot_S32x1x512_S32x8192x512_S32x1x8192_2_2_1_1_0_0_wf
def fn_part2 {F : FTy → Type} [FloatOps F] (main_arg3 : FVec F S32x1x8192 .f32) (main_v18 : IVec S_ 1) (main_v32 : FVec F S32x1x8192 .f32) (main_v34 : FVec F S32x1x1 .f32) : IVec S_ 1 :=
  let main_v35 : FVec F S32x1x8192 .f32 := broadcastInDim S32x1x8192 ![0, 1, 2] bcast_S32x1x1_S32x1x8192_0_1_2 main_v34
  let main_v36 : FVec F S32x1x8192 .f32 := Host.divf main_v32 main_v35
  let main_v37 : FVec F S32x1x8192 .f32 := mulf main_v36 main_arg3
  let main_cst_11 : FVec F S_ .f32 := constant S_ .f32 0x00000000#32
  let main_v38 : FVec F S32x1 .f32 := (fun x v => Host.reduceAdd x v reducesTo_S32x1x8192_S32x1_d2 h_S_) main_v37 main_cst_11
  let main_v39 : FVec F S32x1x1 .f32 := broadcastInDim S32x1x1 ![0, 1] bcast_S32x1_S32x1x1_0_1 main_v38
  let main_cst_12 : FVec F S_ .f32 := constant S_ .f32 0x00000000#32
  let main_v40 : FVec F S32x1x1 .f32 := broadcastInDim S32x1x1 ![] bcast_S_S32x1x1 main_cst_12
  let main_v41 : IVec S32x1x1 1 := cmpf .une main_v39 main_v40
  let main_c_13 : IVec S_ 1 := constantI S_ 1 1#1
  let main_v42 : IVec S_ 1 := (fun x v => Host.reduce IntOp.andi x v reducesTo_S32x1x1_S_d0_1_2 h_S_) main_v41 main_c_13
  let main_v43 : IVec S_ 1 := andi main_v18 main_v42
  main_v43

def fn_part1 {F : FTy → Type} [FloatOps F] (main_arg0 : FVec F S32x16x512 .f32) (main_arg1 : FVec F S32x8192x512 .f32) (main_arg3 : FVec F S32x1x8192 .f32) (main_v13 : IVec S_ 1) (main_v16 : IVec S32x1x8192 1) : IVec S_ 1 :=
  let main_c_5 : IVec S_ 1 := constantI S_ 1 1#1
  let main_v17 : IVec S_ 1 := (fun x v => Host.reduce IntOp.andi x v reducesTo_S32x1x8192_S_d0_1_2 h_S_) main_v16 main_c_5
  let main_v18 : IVec S_ 1 := andi main_v13 main_v17
  let main_v19 : FVec F S32x1x512 .f32 := (extractStridedSlice S32x1x512 ![0, 0, 0] · slices_S32x16x512_S32x1x512_0_0_0) main_arg0
  let main_v20 : FVec F S32x1x8192 .f32 := (fun l r => Host.dotGeneral dot_S32x1x512_S32x8192x512_S32x1x8192_2_2_1_1_0_0 none l r) main_v19 main_arg1
  let main_cst_6 : FVec F S_ .f32 := constant S_ .f32 0x41B504F3#32
  let main_v21 : FVec F S32x1x8192 .f32 := broadcastInDim S32x1x8192 ![] bcast_S_S32x1x8192 main_cst_6
  let main_v22 : FVec F S32x1x8192 .f32 := Host.divf main_v20 main_v21
  let main_v23 : FVec F S32x1x8192 .f32 := mulf main_v22 main_arg3
  let main_cst_7 : FVec F S_ .f32 := constant S_ .f32 0x3F800000#32
  let main_v24 : FVec F S32x1x8192 .f32 := broadcastInDim S32x1x8192 ![] bcast_S_S32x1x8192 main_cst_7
  let main_v25 : FVec F S32x1x8192 .f32 := Host.divf main_v23 main_v24
  let main_cst_8 : FVec F S_ .f32 := constant S_ .f32 0xFF800000#32
  let main_v26 : FVec F S32x1 .f32 := (fun x v => Host.reduce FloatOps.maximumf x v reducesTo_S32x1x8192_S32x1_d2 h_S_) main_v25 main_cst_8
  let main_cst_9 : FVec F S_ .f32 := constant S_ .f32 0xFF800000#32
  let main_v27 : FVec F S32x1 .f32 := broadcastInDim S32x1 ![] bcast_S_S32x1 main_cst_9
  let main_v28 : FVec F S32x1 .f32 := maximumf main_v27 main_v26
  let main_v29 : FVec F S32x1x1 .f32 := broadcastInDim S32x1x1 ![0, 1] bcast_S32x1_S32x1x1_0_1 main_v28
  let main_v30 : FVec F S32x1x8192 .f32 := broadcastInDim S32x1x8192 ![0, 1, 2] bcast_S32x1x1_S32x1x8192_0_1_2 main_v29
  let main_v31 : FVec F S32x1x8192 .f32 := subf main_v25 main_v30
  let main_v32 : FVec F S32x1x8192 .f32 := Host.exp main_v31
  let main_cst_10 : FVec F S_ .f32 := constant S_ .f32 0x00000000#32
  let main_v33 : FVec F S32x1 .f32 := (fun x v => Host.reduceAdd x v reducesTo_S32x1x8192_S32x1_d2 h_S_) main_v32 main_cst_10
  let main_v34 : FVec F S32x1x1 .f32 := broadcastInDim S32x1x1 ![0, 1] bcast_S32x1_S32x1x1_0_1 main_v33
  fn_part2 (F := F) main_arg3 main_v18 main_v32 main_v34

def fn {F : FTy → Type} [FloatOps F] (main_arg0 : FVec F S32x16x512 .f32) (main_arg1 : FVec F S32x8192x512 .f32) (main_arg2 : FVec F S32x8192x512 .f32) (main_arg3 : FVec F S32x1x8192 .f32) : IVec S_ 1 :=
  let main_v0 : FVec F S32x16x512 .f32 := Host.absf main_arg0
  let main_cst : FVec F S_ .f32 := constant S_ .f32 0x7F800000#32
  let main_v1 : FVec F S32x16x512 .f32 := broadcastInDim S32x16x512 ![] bcast_S_S32x16x512 main_cst
  let main_v2 : IVec S32x16x512 1 := cmpf .olt main_v0 main_v1
  let main_c : IVec S_ 1 := constantI S_ 1 1#1
  let main_v3 : IVec S_ 1 := (fun x v => Host.reduce IntOp.andi x v reducesTo_S32x16x512_S_d0_1_2 h_S_) main_v2 main_c
  let main_v4 : FVec F S32x8192x512 .f32 := Host.absf main_arg1
  let main_cst_0 : FVec F S_ .f32 := constant S_ .f32 0x7F800000#32
  let main_v5 : FVec F S32x8192x512 .f32 := broadcastInDim S32x8192x512 ![] bcast_S_S32x8192x512 main_cst_0
  let main_v6 : IVec S32x8192x512 1 := cmpf .olt main_v4 main_v5
  let main_c_1 : IVec S_ 1 := constantI S_ 1 1#1
  let main_v7 : IVec S_ 1 := (fun x v => Host.reduce IntOp.andi x v reducesTo_S32x8192x512_S_d0_1_2 h_S_) main_v6 main_c_1
  let main_v8 : IVec S_ 1 := andi main_v3 main_v7
  let main_v9 : FVec F S32x8192x512 .f32 := Host.absf main_arg2
  let main_cst_2 : FVec F S_ .f32 := constant S_ .f32 0x7F800000#32
  let main_v10 : FVec F S32x8192x512 .f32 := broadcastInDim S32x8192x512 ![] bcast_S_S32x8192x512 main_cst_2
  let main_v11 : IVec S32x8192x512 1 := cmpf .olt main_v9 main_v10
  let main_c_3 : IVec S_ 1 := constantI S_ 1 1#1
  let main_v12 : IVec S_ 1 := (fun x v => Host.reduce IntOp.andi x v reducesTo_S32x8192x512_S_d0_1_2 h_S_) main_v11 main_c_3
  let main_v13 : IVec S_ 1 := andi main_v8 main_v12
  let main_v14 : FVec F S32x1x8192 .f32 := Host.absf main_arg3
  let main_cst_4 : FVec F S_ .f32 := constant S_ .f32 0x7F800000#32
  let main_v15 : FVec F S32x1x8192 .f32 := broadcastInDim S32x1x8192 ![] bcast_S_S32x1x8192 main_cst_4
  let main_v16 : IVec S32x1x8192 1 := cmpf .olt main_v14 main_v15
  fn_part1 (F := F) main_arg0 main_arg1 main_arg3 main_v13 main_v16
-- ==== Kernel.lean ====
abbrev S32x16x512 : Shape := ⟨3, ![32, 16, 512]⟩
abbrev S32x8192x512 : Shape := ⟨3, ![32, 8192, 512]⟩
abbrev S32x1x8192 : Shape := ⟨3, ![32, 1, 8192]⟩
abbrev S32x1x512 : Shape := ⟨3, ![32, 1, 512]⟩
abbrev S1x1x512 : Shape := ⟨3, ![1, 1, 512]⟩
abbrev S1x2048x512 : Shape := ⟨3, ![1, 2048, 512]⟩
abbrev S1x1x2048 : Shape := ⟨3, ![1, 1, 2048]⟩
abbrev S1x1x1 : Shape := ⟨3, ![1, 1, 1]⟩
abbrev S1x1 : Shape := ⟨2, ![1, 1]⟩

abbrev nBuf : Space → Nat
  | .hbm => 6
  | .vmem => 13
  | .smem => 0
  | _ => 0

abbrev bufTy : (tb : Table) → Fin (tcTables nBuf tb) → BufTy
  | .hbm, ⟨0, _⟩ => ⟨S32x16x512, .f32⟩
  | .hbm, ⟨1, _⟩ => ⟨S32x8192x512, .f32⟩
  | .hbm, ⟨2, _⟩ => ⟨S32x8192x512, .f32⟩
  | .hbm, ⟨3, _⟩ => ⟨S32x1x8192, .f32⟩
  | .hbm, ⟨4, _⟩ => ⟨S32x1x512, .f32⟩
  | .hbm, ⟨5, _⟩ => ⟨S32x1x512, .f32⟩
  | .local _ .vmem, ⟨0, _⟩ => ⟨S1x1x512, .f32⟩
  | .local _ .vmem, ⟨1, _⟩ => ⟨S1x1x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x1x2048, .f32⟩
  | .local _ .vmem, ⟨7, _⟩ => ⟨S1x1x2048, .f32⟩
  | .local _ .vmem, ⟨8, _⟩ => ⟨S1x1x512, .f32⟩
  | .local _ .vmem, ⟨9, _⟩ => ⟨S1x1x512, .f32⟩
  | .local _ .vmem, ⟨10, _⟩ => ⟨S1x1x1, .f32⟩
  | .local _ .vmem, ⟨11, _⟩ => ⟨S1x1x1, .f32⟩
  | .local _ .vmem, ⟨12, _⟩ => ⟨S1x1x512, .f32⟩
  | _, _ => ⟨S32x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v45 : BitVec 1 := Scalar.cmpi .eq arg1 c3_i32
  let v46 : BitVec 32 := Scalar.extui v45
  let c0_i32_34 : BitVec 32 := 0#32
  let v47 : BitVec 1 := Scalar.cmpi .ne v46 c0_i32_34
  v47

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S32x16x512_S32x1x512_0_0_0 : S32x16x512.Slices ![0, 0, 0] S32x1x512
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  inb_S1x1x2048_S1x1x2048_0_0_0 : ∀ a, (![0, 0, 0] : Fin 3 → Nat) a + S1x1x2048.size a ≤ S1x1x2048.size a
  h_S1x1x2048 : 0 < S1x1x2048.numel
  reduces_S1x1x2048_S1x1 : S1x1x2048.Reduces [2] S1x1
  shapeCasts_S1x1_S1x1x1 : S1x1.ShapeCasts S1x1x1
  broadcasts_S1x1x1_S1x1x2048 : S1x1x1.Broadcasts S1x1x2048
  broadcasts_S1x1x1_S1x1x512 : S1x1x1.Broadcasts S1x1x512
  dot_S1x1x512_S1x2048x512_S1x1x2048_2_2_1_1_0_0_wf : DotDims.WF S1x1x512 S1x2048x512 S1x1x2048 [2] [2] [1] [1] [0] [0]
  dot_S1x1x2048_S1x2048x512_S1x1x512_2_1_1_2_0_0_wf : DotDims.WF S1x1x2048 S1x2048x512 S1x1x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512.size a ≤ S32x1x512.size a
  hwx0_0 : ∀ i : grid0.Coords, EltTy.bits .f32 = 32 ∨ (Rect.block (s := S32x1x512) S1x1x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S32x8192x512.size a
  hwx0_1 : ∀ i : grid0.Coords, EltTy.bits .f32 = 32 ∨ (Rect.block (s := S32x8192x512) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S32x8192x512.size a
  hwx0_2 : ∀ i : grid0.Coords, EltTy.bits .f32 = 32 ∨ (Rect.block (s := S32x8192x512) S1x2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S32x1x8192.size a
  hwx0_3 : ∀ i : grid0.Coords, EltTy.bits .f32 = 32 ∨ (Rect.block (s := S32x1x8192) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S32x1x512.size a
  hwx0_4 : ∀ i : grid0.Coords, EltTy.bits .f32 = 32 ∨ (Rect.block (s := S32x1x512) S1x1x512.size (cc0_transform_4 i) (hinb0_4 i)).WholeWords (EltTy.packing .f32)

variable [Facts₀]

def dot_S1x1x512_S1x2048x512_S1x1x2048_2_2_1_1_0_0 : DotDims S1x1x512 S1x2048x512 S1x1x2048 where
  lhsContracting := [2]
  rhsContracting := [2]
  lhsNonContracting := [1]
  rhsNonContracting := [1]
  lhsBatch := [0]
  rhsBatch := [0]
  wf := dot_S1x1x512_S1x2048x512_S1x1x2048_2_2_1_1_0_0_wf
def dot_S1x1x2048_S1x2048x512_S1x1x512_2_1_1_2_0_0 : DotDims S1x1x2048 S1x2048x512 S1x1x512 where
  lhsContracting := [2]
  rhsContracting := [1]
  lhsNonContracting := [1]
  rhsNonContracting := [2]
  lhsBatch := [0]
  rhsBatch := [0]
  wf := dot_S1x1x2048_S1x2048x512_S1x1x512_2_1_1_2_0_0_wf

abbrev win0_0 : Pipeline.Window sig grid0 :=
  Pipeline.Window.ofSpec (Memref.whole main_v0) S1x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x16x512 : Shape := ⟨3, ![32, 16, 512]⟩
abbrev S32x8192x512 : Shape := ⟨3, ![32, 8192, 512]⟩
abbrev S32x1x8192 : Shape := ⟨3, ![32, 1, 8192]⟩
abbrev S32x1x512 : Shape := ⟨3, ![32, 1, 512]⟩
abbrev S_ : Shape := ⟨0, ![]⟩
abbrev S32x1 : Shape := ⟨2, ![32, 1]⟩
abbrev S32x1x1 : Shape := ⟨3, ![32, 1, 1]⟩

abbrev nBuf : Space → Nat
  | .hbm => 34
  | .vmem => 0
  | .smem => 0
  | _ => 0

abbrev bufTy : (tb : Table) → Fin (tcTables nBuf tb) → BufTy
  | .hbm, ⟨0, _⟩ => ⟨S32x16x512, .f32⟩
  | .hbm, ⟨1, _⟩ => ⟨S32x8192x512, .f32⟩
  | .hbm, ⟨2, _⟩ => ⟨S32x8192x512, .f32⟩
  | .hbm, ⟨3, _⟩ => ⟨S32x1x8192, .f32⟩
  | .hbm, ⟨4, _⟩ => ⟨S32x1x512, .f32⟩
  | .hbm, ⟨5, _⟩ => ⟨S32x1x8192, .f32⟩
  | .hbm, ⟨6, _⟩ => ⟨S_, .f32⟩
  | .hbm, ⟨7, _⟩ => ⟨S32x1x8192, .f32⟩
  | .hbm, ⟨8, _⟩ => ⟨S32x1x8192, .f32⟩
  | .hbm, ⟨9, _⟩ => ⟨S32x1x8192, .f32⟩
  | .hbm, ⟨10, _⟩ => ⟨S_, .f32⟩
  | .hbm, ⟨11, _⟩ => ⟨S32x1x8192, .f32⟩
  | .hbm, ⟨12, _⟩ => ⟨S32x1x8192, .f32⟩
  | .hbm, ⟨13, _⟩ => ⟨S_, .f32⟩
  | .hbm, ⟨14, _⟩ => ⟨S32x1, .f32⟩
  | .hbm, ⟨15, _⟩ => ⟨S_, .f32⟩
  | .hbm, ⟨16, _⟩ => ⟨S32x1, .f32⟩
  | .hbm, ⟨17, _⟩ => ⟨S32x1, .f32⟩
  | .hbm, ⟨18, _⟩ => ⟨S32x1x1, .f32⟩
  | .hbm, ⟨19, _⟩ => ⟨S32x1x8192, .f32⟩
  | .hbm, ⟨20, _⟩ => ⟨S32x1x8192, .f32⟩
  | .hbm, ⟨21, _⟩ => ⟨S32x1x8192, .f32⟩
  | .hbm, ⟨22, _⟩ => ⟨S_, .f32⟩
  | .hbm, ⟨23, _⟩ => ⟨S32x1, .f32⟩
  | .hbm, ⟨24, _⟩ => ⟨S32x1x1, .f32⟩
  | .hbm, ⟨25, _⟩ => ⟨S32x1x8192, .f32⟩
  | .hbm, ⟨26, _⟩ => ⟨S32x1x8192, .f32⟩
  | .hbm, ⟨27, _⟩ => ⟨S32x1x8192, .f32⟩
  | .hbm, ⟨28, _⟩ => ⟨S_, .f32⟩
  | .hbm, ⟨29, _⟩ => ⟨S32x1, .f32⟩
  | .hbm, ⟨30, _⟩ => ⟨S32x1x1, .f32⟩
  | .hbm, ⟨31, _⟩ => ⟨S32x1x8192, .f32⟩
  | .hbm, ⟨32, _⟩ => ⟨S32x1x8192, .f32⟩
  | .hbm, ⟨33, _⟩ => ⟨S32x1x512, .f32⟩
  | _, _ => ⟨S32x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  slices_S32x16x512_S32x1x512_0_0_0 : S32x16x512.Slices ![0, 0, 0] S32x1x512
  bcast_S_S32x1x8192 : S_.BroadcastsInDim S32x1x8192 (![] : Fin 0 → Fin S32x1x8192.rank)
  reducesTo_S32x1x8192_S32x1_d2 : S32x1x8192.ReducesTo [2] S32x1
  h_S_ : 0 < S_.numel
  bcast_S_S32x1 : S_.BroadcastsInDim S32x1 (![] : Fin 0 → Fin S32x1.rank)
  bcast_S32x1_S32x1x1_0_1 : S32x1.BroadcastsInDim S32x1x1 (![0, 1] : Fin 2 → Fin S32x1x1.rank)
  bcast_S32x1x1_S32x1x8192_0_1_2 : S32x1x1.BroadcastsInDim S32x1x8192 (![0, 1, 2] : Fin 3 → Fin S32x1x8192.rank)
  dot_S32x1x512_S32x8192x512_S32x1x8192_2_2_1_1_0_0_wf : DotDims.WF S32x1x512 S32x8192x512 S32x1x8192 [2] [2] [1] [1] [0] [0]
  dot_S32x1x8192_S32x8192x512_S32x1x512_2_1_1_2_0_0_wf : DotDims.WF S32x1x8192 S32x8192x512 S32x1x512 [2] [1] [1] [2] [0] [0]

variable [Facts₀]

def dot_S32x1x512_S32x8192x512_S32x1x8192_2_2_1_1_0_0 : DotDims S32x1x512 S32x8192x512 S32x1x8192 where
  lhsContracting := [2]
  rhsContracting := [2]
  lhsNonContracting := [1]
  rhsNonContracting := [1]
  lhsBatch := [0]
  rhsBatch := [0]
  wf := dot_S32x1x512_S32x8192x512_S32x1x8192_2_2_1_1_0_0_wf
def dot_S32x1x8192_S32x8192x512_S32x1x512_2_1_1_2_0_0 : DotDims S32x1x8192 S32x8192x512 S32x1x512 where
  lhsContracting := [2]
  rhsContracting := [1]
  lhsNonContracting := [1]
  rhsNonContracting := [2]
  lhsBatch := [0]
  rhsBatch := [0]
  wf := dot_S32x1x8192_S32x8192x512_S32x1x512_2_1_1_2_0_0_wf

class Facts : Prop extends Facts₀ where

variable [Facts]
-- ==== Proof.AttnPieces.lean ====
/-
  What each control case of the kernel body leaves in the three arrays it carries from one grid step to the next — the
  running shift, the running total and the running row of totals — and, at the last tile of a batch row, in the output
  block: each is the body's pure term for that store, applied to the step's input blocks and to what the arrays held
  when the step began. At the first tile of a row the body first overwrites the three arrays with −∞, 0 and a row of
  zeros and then reads those values back, so nothing of the previous row enters; at the other tiles it reads what the
  step before left. The last store into an array is what a later read of it sees.
-/
import proofs.«177233_j33681133535371_2_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F] [Named F]

/-- Every access of the body starts at the origin of its array. -/
theorem hz3 : (![0, 0, 0] : Fin 3 → Nat) = fun _ => 0 := by
  funext a; match a with | ⟨0, _⟩ => rfl | ⟨1, _⟩ => rfl | ⟨2, _⟩ => rfl

/-- First tile of a row: array 0 after the step, from the freshly stored −∞, 0 and zeros. -/
theorem first_0 (c : Dev nD) (i : grid0.Coords) (arg2 : Memref sig .tc .vmem S1x1x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x1x2048 .f32) (harg5 : arg5.IsWhole) (arg6 : Memref sig .tc .vmem S1x1x512 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x512 .f32) (harg9 : arg9.IsWhole) (hc0 : cond0_0 i) (hc1 : ¬cond0_1 i) (x0 : Vec F S1x1x512 .f32) (x1 : Vec F S1x2048x512 .f32) (x2 : Vec F S1x2048x512 .f32) (x3 : Vec F S1x1x2048 .f32) :
    sout0_A_0 c i arg2 harg2 arg3 harg3 arg4 harg4 arg5 harg5 arg6 harg6 arg7 harg7 arg8 harg8 arg9 harg9 hc0 hc1 x0 x1 x2 x3 = k0_pay3 (k0_pay10 x0 x1 x3 (k0_pay5 (F := F))) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x1x1) hz3]
  simp only [View.readAt_eq_ld, harg2.read_unread, harg3.read_unread, harg4.read_unread, harg5.read_unread,
    harg7.read_unread, harg8.read_unread, harg9.read_unread,
    View.ld_unit_zero (S := S1x1x512) hz3, View.ld_unit_zero (S := S1x2048x512) hz3, View.ld_unit_zero (S := S1x1x2048) hz3,
    View.ld_unit_zero (S := S1x1x1) hz3, View.readCov_unit_zero (S := S1x1x1) _ hz3, View.readCov_unit_zero (S := S1x1x512) _ hz3]

/-- First tile of a row: array 1 after the step, from the freshly stored −∞, 0 and zeros. -/
theorem first_1 (c : Dev nD) (i : grid0.Coords) (arg2 : Memref sig .tc .vmem S1x1x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x1x2048 .f32) (harg5 : arg5.IsWhole) (arg6 : Memref sig .tc .vmem S1x1x512 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x512 .f32) (harg9 : arg9.IsWhole) (hc0 : cond0_0 i) (hc1 : ¬cond0_1 i) (x0 : Vec F S1x1x512 .f32) (x1 : Vec F S1x2048x512 .f32) (x2 : Vec F S1x2048x512 .f32) (x3 : Vec F S1x1x2048 .f32) :
    sout0_A_1 c i arg2 harg2 arg3 harg3 arg4 harg4 arg5 harg5 arg6 harg6 arg7 harg7 arg8 harg8 arg9 harg9 hc0 hc1 x0 x1 x2 x3 = k0_pay1 (k0_pay13 x0 x1 x3 (k0_pay5 (F := F)) (k0_pay6 (F := F))) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x1x1) hz3]
  simp only [View.readAt_eq_ld, harg2.read_unread, harg3.read_unread, harg4.read_unread, harg5.read_unread,
    harg7.read_unread, harg8.read_unread, harg9.read_unread,
    View.ld_unit_zero (S := S1x1x512) hz3, View.ld_unit_zero (S := S1x2048x512) hz3, View.ld_unit_zero (S := S1x1x2048) hz3,
    View.ld_unit_zero (S := S1x1x1) hz3, View.readCov_unit_zero (S := S1x1x1) _ hz3, View.readCov_unit_zero (S := S1x1x512) _ hz3]

/-- First tile of a row: array 2 after the step, from the freshly stored −∞, 0 and zeros. -/
theorem first_2 (c : Dev nD) (i : grid0.Coords) (arg2 : Memref sig .tc .vmem S1x1x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x1x2048 .f32) (harg5 : arg5.IsWhole) (arg6 : Memref sig .tc .vmem S1x1x512 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x512 .f32) (harg9 : arg9.IsWhole) (hc0 : cond0_0 i) (hc1 : ¬cond0_1 i) (x0 : Vec F S1x1x512 .f32) (x1 : Vec F S1x2048x512 .f32) (x2 : Vec F S1x2048x512 .f32) (x3 : Vec F S1x1x2048 .f32) :
    sout0_A_2 c i arg2 harg2 arg3 harg3 arg4 harg4 arg5 harg5 arg6 harg6 arg7 harg7 arg8 harg8 arg9 harg9 hc0 hc1 x0 x1 x2 x3 = k0_pay2 (k0_pay8 x2) (k0_pay11 x0 x1 x3 (k0_pay5 (F := F))) (k0_pay12 x0 x1 x3 (k0_pay5 (F := F))) (k0_pay7 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x1x512) hz3]
  simp only [View.readAt_eq_ld, harg2.read_unread, harg3.read_unread, harg4.read_unread, harg5.read_unread,
    harg7.read_unread, harg8.read_unread, harg9.read_unread,
    View.ld_unit_zero (S := S1x1x512) hz3, View.ld_unit_zero (S := S1x2048x512) hz3, View.ld_unit_zero (S := S1x1x2048) hz3,
    View.ld_unit_zero (S := S1x1x1) hz3, View.readCov_unit_zero (S := S1x1x1) _ hz3, View.readCov_unit_zero (S := S1x1x512) _ hz3]

/-- A middle tile of a row: array 0 after the step, over what the step before left. -/
theorem mid_0 (c : Dev nD) (i : grid0.Coords) (arg2 : Memref sig .tc .vmem S1x1x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x1x2048 .f32) (harg5 : arg5.IsWhole) (arg6 : Memref sig .tc .vmem S1x1x512 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x512 .f32) (harg9 : arg9.IsWhole) (hc0 : ¬cond0_0 i) (hc1 : ¬cond0_1 i) (x0 : Vec F S1x1x512 .f32) (x1 : Vec F S1x2048x512 .f32) (x2 : Vec F S1x2048x512 .f32) (x3 : Vec F S1x1x2048 .f32) (xs0 : Vec F S1x1x1 .f32) (xs1 : Vec F S1x1x1 .f32) (xs2 : Vec F S1x1x512 .f32) :
    sout0_B_0 c i arg2 harg2 arg3 harg3 arg4 harg4 arg5 harg5 arg6 harg6 arg7 harg7 arg8 harg8 arg9 harg9 hc0 hc1 x0 x1 x2 x3 xs0 xs1 xs2 = k0_pay3 (k0_pay10 x0 x1 x3 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_cons_unit_zero (S := S1x1x1) hz3]
  simp only [View.readAt_eq_ld, harg2.read_unread, harg3.read_unread, harg4.read_unread, harg5.read_unread,
    harg7.read_unread, harg8.read_unread, harg9.read_unread,
    View.ld_unit_zero (S := S1x1x512) hz3, View.ld_unit_zero (S := S1x2048x512) hz3, View.ld_unit_zero (S := S1x1x2048) hz3,
    View.ld_unit_zero (S := S1x1x1) hz3, View.readCov_unit_zero (S := S1x1x1) _ hz3, View.readCov_unit_zero (S := S1x1x512) _ hz3]

/-- A middle tile of a row: array 1 after the step, over what the step before left. -/
theorem mid_1 (c : Dev nD) (i : grid0.Coords) (arg2 : Memref sig .tc .vmem S1x1x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x1x2048 .f32) (harg5 : arg5.IsWhole) (arg6 : Memref sig .tc .vmem S1x1x512 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x512 .f32) (harg9 : arg9.IsWhole) (hc0 : ¬cond0_0 i) (hc1 : ¬cond0_1 i) (x0 : Vec F S1x1x512 .f32) (x1 : Vec F S1x2048x512 .f32) (x2 : Vec F S1x2048x512 .f32) (x3 : Vec F S1x1x2048 .f32) (xs0 : Vec F S1x1x1 .f32) (xs1 : Vec F S1x1x1 .f32) (xs2 : Vec F S1x1x512 .f32) :
    sout0_B_1 c i arg2 harg2 arg3 harg3 arg4 harg4 arg5 harg5 arg6 harg6 arg7 harg7 arg8 harg8 arg9 harg9 hc0 hc1 x0 x1 x2 x3 xs0 xs1 xs2 = k0_pay1 (k0_pay13 x0 x1 x3 xs0 xs1) := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_cons_unit_zero (S := S1x1x1) hz3]
  simp only [View.readAt_eq_ld, harg2.read_unread, harg3.read_unread, harg4.read_unread, harg5.read_unread,
    harg7.read_unread, harg8.read_unread, harg9.read_unread,
    View.ld_unit_zero (S := S1x1x512) hz3, View.ld_unit_zero (S := S1x2048x512) hz3, View.ld_unit_zero (S := S1x1x2048) hz3,
    View.ld_unit_zero (S := S1x1x1) hz3, View.readCov_unit_zero (S := S1x1x1) _ hz3, View.readCov_unit_zero (S := S1x1x512) _ hz3]

/-- A middle tile of a row: array 2 after the step, over what the step before left. -/
theorem mid_2 (c : Dev nD) (i : grid0.Coords) (arg2 : Memref sig .tc .vmem S1x1x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x1x2048 .f32) (harg5 : arg5.IsWhole) (arg6 : Memref sig .tc .vmem S1x1x512 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x512 .f32) (harg9 : arg9.IsWhole) (hc0 : ¬cond0_0 i) (hc1 : ¬cond0_1 i) (x0 : Vec F S1x1x512 .f32) (x1 : Vec F S1x2048x512 .f32) (x2 : Vec F S1x2048x512 .f32) (x3 : Vec F S1x1x2048 .f32) (xs0 : Vec F S1x1x1 .f32) (xs1 : Vec F S1x1x1 .f32) (xs2 : Vec F S1x1x512 .f32) :
    sout0_B_2 c i arg2 harg2 arg3 harg3 arg4 harg4 arg5 harg5 arg6 harg6 arg7 harg7 arg8 harg8 arg9 harg9 hc0 hc1 x0 x1 x2 x3 xs0 xs1 xs2 = k0_pay2 (k0_pay8 x2) (k0_pay11 x0 x1 x3 xs0) (k0_pay12 x0 x1 x3 xs0) xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_cons_unit_zero (S := S1x1x512) hz3]
  simp only [View.readAt_eq_ld, harg2.read_unread, harg3.read_unread, harg4.read_unread, harg5.read_unread,
    harg7.read_unread, harg8.read_unread, harg9.read_unread,
    View.ld_unit_zero (S := S1x1x512) hz3, View.ld_unit_zero (S := S1x2048x512) hz3, View.ld_unit_zero (S := S1x1x2048) hz3,
    View.ld_unit_zero (S := S1x1x1) hz3, View.readCov_unit_zero (S := S1x1x1) _ hz3, View.readCov_unit_zero (S := S1x1x512) _ hz3]

/-- The last tile of a row: array 0 after the step, over what the step before left. -/
theorem last_0 (c : Dev nD) (i : grid0.Coords) (arg2 : Memref sig .tc .vmem S1x1x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x1x2048 .f32) (harg5 : arg5.IsWhole) (arg6 : Memref sig .tc .vmem S1x1x512 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x512 .f32) (harg9 : arg9.IsWhole) (hc0 : ¬cond0_0 i) (hc1 : cond0_1 i) (x0 : Vec F S1x1x512 .f32) (x1 : Vec F S1x2048x512 .f32) (x2 : Vec F S1x2048x512 .f32) (x3 : Vec F S1x1x2048 .f32) (xs0 : Vec F S1x1x1 .f32) (xs1 : Vec F S1x1x1 .f32) (xs2 : Vec F S1x1x512 .f32) :
    sout0_C_0 c i arg2 harg2 arg3 harg3 arg4 harg4 arg5 harg5 arg6 harg6 arg7 harg7 arg8 harg8 arg9 harg9 hc0 hc1 x0 x1 x2 x3 xs0 xs1 xs2 = k0_pay3 (k0_pay10 x0 x1 x3 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_cons_unit_zero (S := S1x1x1) hz3]
  simp only [View.readAt_eq_ld, harg2.read_unread, harg3.read_unread, harg4.read_unread, harg5.read_unread,
    harg7.read_unread, harg8.read_unread, harg9.read_unread,
    View.ld_unit_zero (S := S1x1x512) hz3, View.ld_unit_zero (S := S1x2048x512) hz3, View.ld_unit_zero (S := S1x1x2048) hz3,
    View.ld_unit_zero (S := S1x1x1) hz3, View.readCov_unit_zero (S := S1x1x1) _ hz3, View.readCov_unit_zero (S := S1x1x512) _ hz3]

/-- The last tile of a row: array 1 after the step, over what the step before left. -/
theorem last_1 (c : Dev nD) (i : grid0.Coords) (arg2 : Memref sig .tc .vmem S1x1x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x1x2048 .f32) (harg5 : arg5.IsWhole) (arg6 : Memref sig .tc .vmem S1x1x512 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x512 .f32) (harg9 : arg9.IsWhole) (hc0 : ¬cond0_0 i) (hc1 : cond0_1 i) (x0 : Vec F S1x1x512 .f32) (x1 : Vec F S1x2048x512 .f32) (x2 : Vec F S1x2048x512 .f32) (x3 : Vec F S1x1x2048 .f32) (xs0 : Vec F S1x1x1 .f32) (xs1 : Vec F S1x1x1 .f32) (xs2 : Vec F S1x1x512 .f32) :
    sout0_C_1 c i arg2 harg2 arg3 harg3 arg4 harg4 arg5 harg5 arg6 harg6 arg7 harg7 arg8 harg8 arg9 harg9 hc0 hc1 x0 x1 x2 x3 xs0 xs1 xs2 = k0_pay1 (k0_pay13 x0 x1 x3 xs0 xs1) := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_cons_unit_zero (S := S1x1x1) hz3]
  simp only [View.readAt_eq_ld, harg2.read_unread, harg3.read_unread, harg4.read_unread, harg5.read_unread,
    harg7.read_unread, harg8.read_unread, harg9.read_unread,
    View.ld_unit_zero (S := S1x1x512) hz3, View.ld_unit_zero (S := S1x2048x512) hz3, View.ld_unit_zero (S := S1x1x2048) hz3,
    View.ld_unit_zero (S := S1x1x1) hz3, View.readCov_unit_zero (S := S1x1x1) _ hz3, View.readCov_unit_zero (S := S1x1x512) _ hz3]

/-- The last tile of a row: array 2 after the step, over what the step before left. -/
theorem last_2 (c : Dev nD) (i : grid0.Coords) (arg2 : Memref sig .tc .vmem S1x1x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x1x2048 .f32) (harg5 : arg5.IsWhole) (arg6 : Memref sig .tc .vmem S1x1x512 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x512 .f32) (harg9 : arg9.IsWhole) (hc0 : ¬cond0_0 i) (hc1 : cond0_1 i) (x0 : Vec F S1x1x512 .f32) (x1 : Vec F S1x2048x512 .f32) (x2 : Vec F S1x2048x512 .f32) (x3 : Vec F S1x1x2048 .f32) (xs0 : Vec F S1x1x1 .f32) (xs1 : Vec F S1x1x1 .f32) (xs2 : Vec F S1x1x512 .f32) :
    sout0_C_2 c i arg2 harg2 arg3 harg3 arg4 harg4 arg5 harg5 arg6 harg6 arg7 harg7 arg8 harg8 arg9 harg9 hc0 hc1 x0 x1 x2 x3 xs0 xs1 xs2 = k0_pay2 (k0_pay8 x2) (k0_pay11 x0 x1 x3 xs0) (k0_pay12 x0 x1 x3 xs0) xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_cons_unit_zero (S := S1x1x512) hz3]
  simp only [View.readAt_eq_ld, harg2.read_unread, harg3.read_unread, harg4.read_unread, harg5.read_unread,
    harg7.read_unread, harg8.read_unread, harg9.read_unread,
    View.ld_unit_zero (S := S1x1x512) hz3, View.ld_unit_zero (S := S1x2048x512) hz3, View.ld_unit_zero (S := S1x1x2048) hz3,
    View.ld_unit_zero (S := S1x1x1) hz3, View.readCov_unit_zero (S := S1x1x1) _ hz3, View.readCov_unit_zero (S := S1x1x512) _ hz3]

/-- The last tile of a row: the output block is the quotient of the new row of totals by the new total. -/
theorem last_out (c : Dev nD) (i : grid0.Coords) (arg2 : Memref sig .tc .vmem S1x1x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x1x2048 .f32) (harg5 : arg5.IsWhole) (arg6 : Memref sig .tc .vmem S1x1x512 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x512 .f32) (harg9 : arg9.IsWhole) (hc0 : ¬cond0_0 i) (hc1 : cond0_1 i) (x0 : Vec F S1x1x512 .f32) (x1 : Vec F S1x2048x512 .f32) (x2 : Vec F S1x2048x512 .f32) (x3 : Vec F S1x1x2048 .f32) (xs0 : Vec F S1x1x1 .f32) (xs1 : Vec F S1x1x1 .f32) (xs2 : Vec F S1x1x512 .f32) :
    out0_C_4 c i arg2 harg2 arg3 harg3 arg4 harg4 arg5 harg5 arg6 harg6 arg7 harg7 arg8 harg8 arg9 harg9 hc0 hc1 x0 x1 x2 x3 xs0 xs1 xs2
      = k0_pay4 (k0_pay2 (k0_pay8 x2) (k0_pay11 x0 x1 x3 xs0) (k0_pay12 x0 x1 x3 xs0) xs2) (k0_pay1 (k0_pay13 x0 x1 x3 xs0 xs1)) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_cons_unit_zero (S := S1x1x512) hz3]
  simp only [View.readAt_eq_ld, harg2.read_unread, harg3.read_unread, harg4.read_unread, harg5.read_unread,
    harg7.read_unread, harg8.read_unread, harg9.read_unread,
    View.ld_unit_zero (S := S1x1x512) hz3, View.ld_unit_zero (S := S1x2048x512) hz3, View.ld_unit_zero (S := S1x1x2048) hz3,
    View.ld_unit_zero (S := S1x1x1) hz3, View.readCov_unit_zero (S := S1x1x1) _ hz3, View.readCov_unit_zero (S := S1x1x512) _ hz3]

end Cert.KernelIdeal.Pieces

end
-- ==== Proof.LibFlatten.lean ====
/-
  Rank-3 layout facts read at one index, for any extents and any entries.

  Folding the two leading axes of an [a, b, c] array into one axis of a·b rows (and unfolding it again) keeps every entry:
  row p·b + q of the folded array is the pair (p, q). The three rotations of a rank-3 array's axes that are not already
  in the library move the entry at (p, q, r) to (q, r, p), to (q, p, r) and to (r, p, q). A trailing unit axis added to a
  matrix, and a trailing unit axis spread over c entries, read the matrix entry. A sum over the last of three axes
  reads, at (p, q), the sum of the c entries (p, q, ·).
-/
import Idealize.ShloMosaic.Lib.Pipeline.Value
import Idealize.ShloMosaic.Lib.ValueIdx
import Idealize.ShloMosaic.PureOps.Ideal.Laws

open scoped BigOperators

namespace Cert.LibFlatten

open Idealize.ShloMosaic Idealize.ShloMosaic.ValueIdx

variable {α : Type}

/-- An `[a, b, c]` array with its two leading axes folded into `n` rows reads, at row `j = p·b + q` and column `r`,
    the operand at `(p, q, r)`. -/
theorem fold_abc_apply {a b c n : ℕ} (x : (⟨3, ![a, b, c]⟩ : Shape).Idx → α)
    (h : (⟨3, ![a, b, c]⟩ : Shape).ShapeCasts ⟨2, ![n, c]⟩) (p : Fin a) (q : Fin b) (r : Fin c) (j : Fin n)
    (hj : j.val = p.val * b + q.val) : shapeCast ⟨2, ![n, c]⟩ x h (ix2 j r) = x (ix3 p q r) :=
  shapeCast_apply x h _ _ (by
    rw [Shape.rowMajor_val_three, Shape.rowMajor_val_two]
    show (p.val * b + q.val) * c + r.val = j.val * c + r.val
    rw [hj])

/-- An `[n, c]` array with its rows unfolded into `[a, b]` reads, at `(p, q, r)`, the operand at row `j = p·b + q`. -/
theorem unfold_abc_apply {a b c n : ℕ} (x : (⟨2, ![n, c]⟩ : Shape).Idx → α)
    (h : (⟨2, ![n, c]⟩ : Shape).ShapeCasts ⟨3, ![a, b, c]⟩) (p : Fin a) (q : Fin b) (r : Fin c) (j : Fin n)
    (hj : j.val = p.val * b + q.val) : shapeCast ⟨3, ![a, b, c]⟩ x h (ix3 p q r) = x (ix2 j r) :=
  shapeCast_apply x h _ _ (by
    rw [Shape.rowMajor_val_three, Shape.rowMajor_val_two]
    show j.val * c + r.val = (p.val * b + q.val) * c + r.val
    rw [hj])

/-- The rotation `[1, 2, 0]` of an `[a, b, c]` array reads, at `(q, r, p)`, the operand at `(p, q, r)`. -/
theorem rot120_apply {a b c : ℕ} (x : (⟨3, ![a, b, c]⟩ : Shape).Idx → α)
    (h : (⟨3, ![a, b, c]⟩ : Shape).Transposes [1, 2, 0] ⟨3, ![b, c, a]⟩) (p : Fin a) (q : Fin b) (r : Fin c) :
    transpose ⟨3, ![b, c, a]⟩ [1, 2, 0] x h (ix3 q r p) = x (ix3 p q r) :=
  transpose_apply _ x h _ _ fun d => match d with | ⟨0, _⟩ => rfl | ⟨1, _⟩ => rfl | ⟨2, _⟩ => rfl

/-- The swap `[1, 0, 2]` of the two leading axes of an `[a, b, c]` array reads, at `(q, p, r)`, the operand at `(p, q, r)`. -/
theorem swap102_apply {a b c : ℕ} (x : (⟨3, ![a, b, c]⟩ : Shape).Idx → α)
    (h : (⟨3, ![a, b, c]⟩ : Shape).Transposes [1, 0, 2] ⟨3, ![b, a, c]⟩) (p : Fin a) (q : Fin b) (r : Fin c) :
    transpose ⟨3, ![b, a, c]⟩ [1, 0, 2] x h (ix3 q p r) = x (ix3 p q r) :=
  transpose_apply _ x h _ _ fun d => match d with | ⟨0, _⟩ => rfl | ⟨1, _⟩ => rfl | ⟨2, _⟩ => rfl

/-- The rotation `[2, 0, 1]` of an `[a, b, c]` array reads, at `(r, p, q)`, the operand at `(p, q, r)`. -/
theorem rot201_apply {a b c : ℕ} (x : (⟨3, ![a, b, c]⟩ : Shape).Idx → α)
    (h : (⟨3, ![a, b, c]⟩ : Shape).Transposes [2, 0, 1] ⟨3, ![c, a, b]⟩) (p : Fin a) (q : Fin b) (r : Fin c) :
    transpose ⟨3, ![c, a, b]⟩ [2, 0, 1] x h (ix3 r p q) = x (ix3 p q r) :=
  transpose_apply _ x h _ _ fun d => match d with | ⟨0, _⟩ => rfl | ⟨1, _⟩ => rfl | ⟨2, _⟩ => rfl

/-- An `[a, b]` array given a trailing unit axis reads, at `(p, q, u)`, the operand at `(p, q)`. -/
theorem cast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, 1]` array spread over `c` entries of its last axis reads, at `(p, q, r)`, the operand at `(p, q, 0)`. -/
theorem spread_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A sum over the last of three axes: the `add` reduction of an `[a, b, c]` array over axis 2 reads, at `(p, q)`, the
    sum of the `c` entries `(p, q, ·)` (the accumulator is the sum's neutral element, so it contributes nothing). -/
theorem sumLast3_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  show ∑ k : Fin c, src (h.lift (ix2 p q) k) = _
  refine Finset.sum_congr rfl fun k _ => congrArg src ?_
  funext d; apply Fin.ext
  match d with
  | ⟨0, _⟩ => rfl
  | ⟨1, _⟩ => rfl
  | ⟨2, _⟩ => rfl

end Cert.LibFlatten
-- ==== Proof.LibBatchMatmulIdx.lean ====
/-
  A batched matrix product accumulated into zero, read entry by entry over the extended reals, for any extents: one
  leading batch coordinate shared by both operands and the result, rows by columns within a batch
  (`[g, m, k] · [g, k, n]`): the entry at `(t, a, b)` is `∑ c, A (t, a, c) · B (t, c, b)`. The dimension numbers are
  written out literally, so a program's own record of them unifies with the statement by unfolding.
-/
import Idealize.ShloMosaic.Lib.ValueIdx
import Idealize.ShloMosaic.PureOps.Ideal.Laws

open scoped BigOperators

noncomputable section

namespace Cert.LibBatchMatmulIdx

open Idealize.ShloMosaic Idealize.ShloMosaic.ValueIdx

/-- Within batch `t`, rows by columns: the entry at `(t, a, b)` of a `g`-fold batch of `m × k` by `k × n` products
    accumulated into zero is the sum over the contracted coordinate of the products of the two entries of batch `t`. -/
theorem matmul_brc_apply {g m k n : Nat} {φ₁ φ₂ : FTy}
    (w : DotDims.WF ⟨3, ![g, m, k]⟩ ⟨3, ![g, k, n]⟩ ⟨3, ![g, m, n]⟩ [2] [1] [1] [2] [0] [0])
    (prec : Option ContractPrecision) (A : FVec Ideal ⟨3, ![g, m, k]⟩ φ₁) (B : FVec Ideal ⟨3, ![g, k, n]⟩ φ₂)
    (t : Fin g) (a : Fin m) (b : Fin n) :
    FloatOps.matmul (⟨[2], [1], [1], [2], [0], [0], w⟩ : DotDims ⟨3, ![g, m, k]⟩ ⟨3, ![g, k, n]⟩ ⟨3, ![g, m, n]⟩) prec A B
        (constant (F := Ideal) ⟨3, ![g, m, n]⟩ .f32 0x00000000#32) (ix3 t a b)
      = ∑ c : Fin k, A (ix3 t a c) * B (ix3 t c b) := by
  rw [Ideal.matmul_constant_zero_apply,
    ← Equiv.sum_comp (contrEquiv1 (⟨[2], [1], [1], [2], [0], [0], w⟩ : DotDims ⟨3, ![g, m, k]⟩ ⟨3, ![g, k, n]⟩ ⟨3, ![g, m, n]⟩) k rfl rfl).symm]
  refine Finset.sum_congr rfl fun c _ => ?_
  have hc := contrEquiv1_symm_val
    (⟨[2], [1], [1], [2], [0], [0], w⟩ : DotDims ⟨3, ![g, m, k]⟩ ⟨3, ![g, k, n]⟩ ⟨3, ![g, m, n]⟩) k rfl rfl c
  have hl : (⟨[2], [1], [1], [2], [0], [0], w⟩ : DotDims ⟨3, ![g, m, k]⟩ ⟨3, ![g, k, n]⟩ ⟨3, ![g, m, n]⟩).lhsIdx (ix3 t a b)
      ((contrEquiv1 _ k rfl rfl).symm c) = ix3 t a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact hc
  have hr : (⟨[2], [1], [1], [2], [0], [0], w⟩ : DotDims ⟨3, ![g, m, k]⟩ ⟨3, ![g, k, n]⟩ ⟨3, ![g, m, n]⟩).rhsIdx (ix3 t a b)
      ((contrEquiv1 _ k rfl rfl).symm c) = ix3 t c b := by
    funext ax; apply Fin.ext
    match ax with
    | ⟨0, _⟩ => simp [DotDims.rhsIdx]; rfl
    | ⟨1, _⟩ => simp [DotDims.rhsIdx]; exact hc
    | ⟨2, _⟩ => simp [DotDims.rhsIdx]; rfl
  rw [hl, hr]

end Cert.LibBatchMatmulIdx

end
-- ==== Proof.LibBatchMatmulRows.lean ====
/-
  A batched matrix product accumulated into zero whose two operands are both contracted on their LAST coordinate, read
  entry by entry over the extended reals, for any extents: one leading batch coordinate shared by both operands and the
  result, rows by rows within a batch (`[g, m, k] · [g, n, k]`): the entry at `(t, a, b)` is `∑ c, A (t, a, c) · B (t, b, c)`
  — a query row against every key row. The dimension numbers are written out literally, so a program's own record of
  them unifies with the statement by unfolding.

  Also: the `maximumf` reduction of an `[a, b, c]` array over its last axis, read at `(p, q)`, is the fold of `max` over the
  `c` entries `(p, q, ·)` from the accumulator's value.
-/
import Idealize.ShloMosaic.Lib.ValueIdx
import Idealize.ShloMosaic.PureOps.Ideal.Laws

open scoped BigOperators

noncomputable section

namespace Cert.LibBatchMatmulRows

open Idealize.ShloMosaic Idealize.ShloMosaic.ValueIdx

/-- Within batch `t`, rows by rows: the entry at `(t, a, b)` of a `g`-fold batch of `m × k` by `n × k` products
    accumulated into zero is the sum over the shared last coordinate of the products of the two entries of batch `t`. -/
theorem matmul_brr_apply {g m k n : Nat} {φ₁ φ₂ : FTy}
    (w : DotDims.WF ⟨3, ![g, m, k]⟩ ⟨3, ![g, n, k]⟩ ⟨3, ![g, m, n]⟩ [2] [2] [1] [1] [0] [0])
    (prec : Option ContractPrecision) (A : FVec Ideal ⟨3, ![g, m, k]⟩ φ₁) (B : FVec Ideal ⟨3, ![g, n, k]⟩ φ₂)
    (t : Fin g) (a : Fin m) (b : Fin n) :
    FloatOps.matmul (⟨[2], [2], [1], [1], [0], [0], w⟩ : DotDims ⟨3, ![g, m, k]⟩ ⟨3, ![g, n, k]⟩ ⟨3, ![g, m, n]⟩) prec A B
        (constant (F := Ideal) ⟨3, ![g, m, n]⟩ .f32 0x00000000#32) (ix3 t a b)
      = ∑ c : Fin k, A (ix3 t a c) * B (ix3 t b c) := by
  rw [Ideal.matmul_constant_zero_apply,
    ← Equiv.sum_comp (contrEquiv1 (⟨[2], [2], [1], [1], [0], [0], w⟩ : DotDims ⟨3, ![g, m, k]⟩ ⟨3, ![g, n, k]⟩ ⟨3, ![g, m, n]⟩) k rfl rfl).symm]
  refine Finset.sum_congr rfl fun c _ => ?_
  have hc := contrEquiv1_symm_val
    (⟨[2], [2], [1], [1], [0], [0], w⟩ : DotDims ⟨3, ![g, m, k]⟩ ⟨3, ![g, n, k]⟩ ⟨3, ![g, m, n]⟩) k rfl rfl c
  have hl : (⟨[2], [2], [1], [1], [0], [0], w⟩ : DotDims ⟨3, ![g, m, k]⟩ ⟨3, ![g, n, k]⟩ ⟨3, ![g, m, n]⟩).lhsIdx (ix3 t a b)
      ((contrEquiv1 _ k rfl rfl).symm c) = ix3 t a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact hc
  have hr : (⟨[2], [2], [1], [1], [0], [0], w⟩ : DotDims ⟨3, ![g, m, k]⟩ ⟨3, ![g, n, k]⟩ ⟨3, ![g, m, n]⟩).rhsIdx (ix3 t a b)
      ((contrEquiv1 _ k rfl rfl).symm c) = ix3 t b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact hc
  rw [hl, hr]

/-- The largest entry along the last of three axes: the `maximumf` reduction of an `[a, b, c]` array over axis 2 reads,
    at `(p, q)`, the fold of `max` over the `c` entries `(p, q, ·)`, started from the accumulator's value. -/
theorem maxLast3_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.maximumf.neutral φ hφ) (p : Fin a) (q : Fin b) :
    multiReduction .maximumf [2] ⟨2, ![a, b]⟩ src acc h hφ hacc (ix2 p q)
      = (Finset.univ : Finset (Fin c)).fold max (FloatOps.ofBits (F := Ideal) φ acc) (fun k => src (ix3 p q k)) := by
  refine (Ideal.multiReduction_maximumf_single src acc h hφ hacc (ix2 p q)).trans ?_
  have e : (src ∘ h.lift (ix2 p q)) = fun k : Fin c => src (ix3 p q k) :=
    funext fun k => congrArg src (by
      funext d; apply Fin.ext
      match d with
      | ⟨0, _⟩ => rfl
      | ⟨1, _⟩ => rfl
      | ⟨2, _⟩ => rfl)
  exact congrArg (fun f => (Finset.univ : Finset (Fin c)).fold max (FloatOps.ofBits (F := Ideal) φ acc) f) e

end Cert.LibBatchMatmulRows

end
-- ==== Proof.AttnTile.lean ====
/-
  One grid step of the kernel body, read entry by entry over the extended reals.

  A step sees one query row q (512 entries), a tile of 2048 key rows K and value rows V, and the tile's 2048 trust weights
  w, together with the running triple it carries: a shift m, a total l and a row acc of 512 totals. It computes
      s_j   = (∑_d (q_d · c) · K_{j d}) · w_j                 the tile's trust-weighted scores (c the named scale 1/D)
      m'    = max m (max_j s_j)                                the new shift
      l'    = e^{m − m'} · l + ∑_j e^{s_j − m'} · w_j
      acc'_d = e^{m − m'} · acc_d + ∑_j (e^{s_j − m'} · w_j) · V_{j d}
  and, at the last tile of a row, the quotient acc'_d / l'. Each lemma below reads one of the body's pure terms at an index
  as the corresponding formula; a change of float format is the identity here, a matrix product into a zero accumulator
  is the plain sum of products, and the reductions over the lane axis are a fold of max and a sum.
-/
import proofs.«177233_j33681133535371_2_alg».proof.Proof.Gen.KernelIdeal.Skeleton
import proofs.«177233_j33681133535371_2_alg».proof.Proof.LibFlatten
import proofs.«177233_j33681133535371_2_alg».proof.Proof.LibBatchMatmulIdx
import proofs.«177233_j33681133535371_2_alg».proof.Proof.LibBatchMatmulRows
import Idealize.ShloMosaic.Lib.ValueIdx
import Idealize.ShloMosaic.Lib.Pipeline.Value
import Idealize.ShloMosaic.PureOps.Ideal.Laws
import Idealize.ShloMosaic.PureOps.IdealRules

open scoped BigOperators

noncomputable section

namespace Cert.KernelIdeal.Tile

open Cert.KernelIdeal Cert.KernelIdeal.Gen Idealize.ShloMosaic Idealize.ShloMosaic.ValueIdx

/-- The one index of a `[1, 1, 1]` array. -/
abbrev o : S1x1x1.Idx := ix3 (0 : Fin 1) (0 : Fin 1) (0 : Fin 1)

theorem idx_eq_o (y : S1x1x1.Idx) : y = o := by
  funext a; apply Fin.ext
  match a with
  | ⟨0, _⟩ => have h : (y 0).val < 1 := (y 0).isLt; show (y 0).val = 0; omega
  | ⟨1, _⟩ => have h : (y 1).val < 1 := (y 1).isLt; show (y 1).val = 0; omega
  | ⟨2, _⟩ => have h : (y 2).val < 1 := (y 2).isLt; show (y 2).val = 0; omega

/-- The scale the kernel multiplies the query by is, by its name, the reciprocal 1/D of the reference's divisor. -/
def cS : EReal := ((524288 / 11863283 : ℝ) : EReal)

theorem scale_eq : Named.named (F := Ideal) κ "inv_sqrt_dim" (φ := .f32) 0x3D3504F3#32 = cS :=
  IdealRules.named_const.ideal_named_scalar _ _ _ _ rfl

theorem negInf_f32 : Ideal.ofBits .f32 0xFF800000#32 = (⊥ : EReal) := by simp [Ideal.ofBits, Ideal.ieee]

/-- The tile's trust-weighted scores. -/
def sc (x0 : Vec Ideal S1x1x512 .f32) (x1 : Vec Ideal S1x2048x512 .f32) (x3 : Vec Ideal S1x1x2048 .f32) (j : Fin 2048) : EReal :=
  (∑ d : Fin 512, (x0 (ix3 (0 : Fin 1) (0 : Fin 1) d) * cS) * x1 (ix3 (0 : Fin 1) j d)) * x3 (ix3 (0 : Fin 1) (0 : Fin 1) j)

theorem pay9_apply (x0 : Vec Ideal S1x1x512 .f32) (x1 : Vec Ideal S1x2048x512 .f32) (x3 : Vec Ideal S1x1x2048 .f32) (j : Fin 2048) :
    k0_pay9 (F := Ideal) x0 x1 x3 (ix3 (0 : Fin 1) (0 : Fin 1) j) = sc x0 x1 x3 j := by
  unfold k0_pay9 sc
  refine congrArg (· * x3 (ix3 (0 : Fin 1) (0 : Fin 1) j)) ?_
  refine (LibBatchMatmulRows.matmul_brr_apply _ none _ _ (0 : Fin 1) (0 : Fin 1) j).trans ?_
  refine Finset.sum_congr rfl fun d _ => ?_
  rw [shapeCast_self]
  show (x0 (ix3 (0 : Fin 1) (0 : Fin 1) d) * Named.named (F := Ideal) κ "inv_sqrt_dim" (φ := .f32) 0x3D3504F3#32) * x1 (ix3 (0 : Fin 1) j d) = _
  rw [scale_eq]

/-- The new shift. -/
def mN (x0 : Vec Ideal S1x1x512 .f32) (x1 : Vec Ideal S1x2048x512 .f32) (x3 : Vec Ideal S1x1x2048 .f32) (mp : EReal) : EReal :=
  max mp ((Finset.univ : Finset (Fin 2048)).fold max (⊥ : EReal) (sc x0 x1 x3))

theorem pay10_apply (x0 : Vec Ideal S1x1x512 .f32) (x1 : Vec Ideal S1x2048x512 .f32) (x3 : Vec Ideal S1x1x2048 .f32)
    (v15 : Vec Ideal S1x1x1 .f32) : k0_pay10 (F := Ideal) x0 x1 x3 v15 o = mN x0 x1 x3 (v15 o) := by
  unfold k0_pay10 mN
  refine congrArg (max (v15 o)) ?_
  refine (LibFlatten.cast_ab_ab1_apply _ _ (0 : Fin 1) (0 : Fin 1) (0 : Fin 1)).trans ?_
  refine (LibBatchMatmulRows.maxLast3_apply _ _ _ _ _ (0 : Fin 1) (0 : Fin 1)).trans ?_
  have e : (fun k : Fin 2048 => k0_pay9 (F := Ideal) x0 x1 x3 (ix3 (0 : Fin 1) (0 : Fin 1) k)) = sc x0 x1 x3 :=
    funext fun k => pay9_apply x0 x1 x3 k
  rw [e]
  exact congrArg (fun z => (Finset.univ : Finset (Fin 2048)).fold max z (sc x0 x1 x3)) negInf_f32

theorem pay11_apply (x0 : Vec Ideal S1x1x512 .f32) (x1 : Vec Ideal S1x2048x512 .f32) (x3 : Vec Ideal S1x1x2048 .f32)
    (v15 : Vec Ideal S1x1x1 .f32) :
    k0_pay11 (F := Ideal) x0 x1 x3 v15 o = Ideal.exp (v15 o - mN x0 x1 x3 (v15 o)) := by
  unfold k0_pay11
  show Ideal.exp (v15 o - k0_pay10 (F := Ideal) x0 x1 x3 v15 o) = _
  rw [pay10_apply]

theorem pay12_apply (x0 : Vec Ideal S1x1x512 .f32) (x1 : Vec Ideal S1x2048x512 .f32) (x3 : Vec Ideal S1x1x2048 .f32)
    (v15 : Vec Ideal S1x1x1 .f32) (j : Fin 2048) :
    k0_pay12 (F := Ideal) x0 x1 x3 v15 (ix3 (0 : Fin 1) (0 : Fin 1) j)
      = Ideal.exp (sc x0 x1 x3 j - mN x0 x1 x3 (v15 o)) * x3 (ix3 (0 : Fin 1) (0 : Fin 1) j) := by
  unfold k0_pay12
  show Ideal.exp (k0_pay9 (F := Ideal) x0 x1 x3 (ix3 (0 : Fin 1) (0 : Fin 1) j)
      - broadcastTo S1x1x2048 (k0_pay10 (F := Ideal) x0 x1 x3 v15) broadcasts_S1x1x1_S1x1x2048 (ix3 (0 : Fin 1) (0 : Fin 1) j))
      * x3 (ix3 (0 : Fin 1) (0 : Fin 1) j) = _
  rw [pay9_apply, LibFlatten.spread_ab1_abc_apply, pay10_apply]

theorem pay13_apply (x0 : Vec Ideal S1x1x512 .f32) (x1 : Vec Ideal S1x2048x512 .f32) (x3 : Vec Ideal S1x1x2048 .f32)
    (v15 v25 : Vec Ideal S1x1x1 .f32) :
    k0_pay13 (F := Ideal) x0 x1 x3 v15 v25 o
      = Ideal.exp (v15 o - mN x0 x1 x3 (v15 o)) * v25 o
        + ∑ j : Fin 2048, Ideal.exp (sc x0 x1 x3 j - mN x0 x1 x3 (v15 o)) * x3 (ix3 (0 : Fin 1) (0 : Fin 1) j) := by
  unfold k0_pay13
  refine congrArg₂ (· + ·) ?_ ?_
  · show k0_pay11 (F := Ideal) x0 x1 x3 v15 o * v25 o = _
    rw [pay11_apply]
  · refine (LibFlatten.cast_ab_ab1_apply _ _ (0 : Fin 1) (0 : Fin 1) (0 : Fin 1)).trans ?_
    refine (LibFlatten.sumLast3_apply _ _ _ _ _ (0 : Fin 1) (0 : Fin 1)).trans ?_
    exact Finset.sum_congr rfl fun j _ => pay12_apply x0 x1 x3 v15 j

theorem pay2_apply (v11 : FVec Ideal S1x2048x512 .bf16) (v20 : FVec Ideal S1x1x1 .f32) (v24 : FVec Ideal S1x1x2048 .f32)
    (v35 : Vec Ideal S1x1x512 .f32) (d : Fin 512) :
    k0_pay2 (F := Ideal) v11 v20 v24 v35 (ix3 (0 : Fin 1) (0 : Fin 1) d)
      = v20 o * v35 (ix3 (0 : Fin 1) (0 : Fin 1) d)
        + ∑ j : Fin 2048, v24 (ix3 (0 : Fin 1) (0 : Fin 1) j) * v11 (ix3 (0 : Fin 1) j d) := by
  unfold k0_pay2
  rw [shapeCast_self]
  refine congrArg₂ (· + ·) ?_ ?_
  · refine congrArg (· * v35 (ix3 (0 : Fin 1) (0 : Fin 1) d)) ?_
    exact LibFlatten.spread_ab1_abc_apply _ _ (0 : Fin 1) (0 : Fin 1) d
  · exact LibBatchMatmulIdx.matmul_brc_apply _ none _ _ (0 : Fin 1) (0 : Fin 1) d

theorem pay8_apply (v10 : Vec Ideal S1x2048x512 .f32) (i : S1x2048x512.Idx) : k0_pay8 (F := Ideal) v10 i = v10 i := rfl

theorem pay1_eq (v29 : FVec Ideal S1x1x1 .f32) : k0_pay1 (F := Ideal) v29 = v29 := by
  unfold k0_pay1; exact shapeCast_self _ _

theorem pay3_eq (v18 : FVec Ideal S1x1x1 .f32) : k0_pay3 (F := Ideal) v18 = v18 := by
  unfold k0_pay3; exact shapeCast_self _ _

theorem pay4_apply (v48 : Vec Ideal S1x1x512 .f32) (v49 : Vec Ideal S1x1x1 .f32) (d : Fin 512) :
    k0_pay4 (F := Ideal) v48 v49 (ix3 (0 : Fin 1) (0 : Fin 1) d) = Ideal.div (v48 (ix3 (0 : Fin 1) (0 : Fin 1) d)) (v49 o) := by
  unfold k0_pay4
  show Ideal.div (v48 (ix3 (0 : Fin 1) (0 : Fin 1) d))
    (broadcastTo S1x1x512 v49 broadcasts_S1x1x1_S1x1x512 (ix3 (0 : Fin 1) (0 : Fin 1) d)) = _
  rw [LibFlatten.spread_ab1_abc_apply]

theorem pay5_apply (y : S1x1x1.Idx) : k0_pay5 (F := Ideal) y = (⊥ : EReal) := by
  unfold k0_pay5; rw [shapeCast_self]; exact negInf_f32

theorem pay6_apply (y : S1x1x1.Idx) : k0_pay6 (F := Ideal) y = (0 : EReal) := by
  unfold k0_pay6; rw [shapeCast_self]; exact Ideal.ofBits_zero_f32

theorem pay7_apply (y : S1x1x512.Idx) : k0_pay7 (F := Ideal) y = (0 : EReal) := by
  unfold k0_pay7; rw [shapeCast_self]; exact Ideal.ofBits_zero_f32

end Cert.KernelIdeal.Tile

end
-- ==== Proof.AttnSpec.lean ====
/-
  The mathematics of single-query attention with trust reweighting, on one batch row.

  For scores s_j, trust weights w_j and one column u_j of the value rows (j running over the keys), write, for a shift μ,
      den μ n = ∑_{j<n} e^{s_j − μ} · w_j          num μ n = ∑_{j<n} e^{s_j − μ} · w_j · u_j .
  * Rescaling.  e^{μ − μ'} · den μ n = den μ' n, and the same for num: a change of shift multiplies every term by one factor.
    Hence a running pair (den, num) over the first n keys, kept at shift μ, is carried to the first n + T keys at any new
    shift μ' by  e^{μ − μ'} · (old) + (the T new terms at shift μ'):  the shift need not be a maximum for this to hold.
  * The quotient does not depend on the shift.  num μ N / den μ N is the same number for every μ, and when the weights
    e^{s_j − μ} are first normalised by their total Z, multiplied by w_j, and normalised again by their total S ≠ 0, the sum of
    these doubly normalised weights against u is that same quotient.
  The second half of the file carries these facts into the extended reals, where the programs compute: sums, products,
  differences and exponentials of real entries are the real ones, e^{−∞ − m} = 0 starts a running sum from nothing, and a
  quotient by a nonzero real is the product with its reciprocal.
-/
import Idealize.ShloMosaic.PureOps.Ideal
import Mathlib.Algebra.BigOperators.Group.Finset.Basic
import Mathlib.Algebra.BigOperators.Intervals
import Mathlib.Algebra.Order.BigOperators.Group.Finset
import Mathlib.Data.EReal.Basic
import Mathlib.Analysis.SpecialFunctions.Exp
import Mathlib.Tactic

open scoped BigOperators

noncomputable section

namespace Cert.AttnSpec

open Idealize.ShloMosaic

/-! ## Running sums at a shift -/

/-- The weighted total of the first `n` exponentials at shift `μ`. -/
def den (s w : ℕ → ℝ) (μ : ℝ) (n : ℕ) : ℝ := ∑ j ∈ Finset.range n, Real.exp (s j - μ) * w j

/-- The same total against one column `u` of the values. -/
def num (s w u : ℕ → ℝ) (μ : ℝ) (n : ℕ) : ℝ := ∑ j ∈ Finset.range n, Real.exp (s j - μ) * w j * u j

theorem den_rescale (s w : ℕ → ℝ) (μ μ' : ℝ) (n : ℕ) : Real.exp (μ - μ') * den s w μ n = den s w μ' n := by
  unfold den
  rw [Finset.mul_sum]
  refine Finset.sum_congr rfl fun j _ => ?_
  rw [← mul_assoc, ← Real.exp_add]
  congr 2; ring

theorem num_rescale (s w u : ℕ → ℝ) (μ μ' : ℝ) (n : ℕ) : Real.exp (μ - μ') * num s w u μ n = num s w u μ' n := by
  unfold num
  rw [Finset.mul_sum]
  refine Finset.sum_congr rfl fun j _ => ?_
  rw [← mul_assoc, ← mul_assoc, ← Real.exp_add]
  congr 3; ring

/-- One more run of `T` keys: the old total rescaled to the new shift, plus the new terms at the new shift. -/
theorem den_step (s w : ℕ → ℝ) (μ μ' : ℝ) (n T : ℕ) :
    Real.exp (μ - μ') * den s w μ n + ∑ x ∈ Finset.range T, Real.exp (s (n + x) - μ') * w (n + x) = den s w μ' (n + T) := by
  rw [den_rescale]; unfold den; rw [Finset.sum_range_add]

theorem num_step (s w u : ℕ → ℝ) (μ μ' : ℝ) (n T : ℕ) :
    Real.exp (μ - μ') * num s w u μ n + ∑ x ∈ Finset.range T, Real.exp (s (n + x) - μ') * w (n + x) * u (n + x)
      = num s w u μ' (n + T) := by
  rw [num_rescale]; unfold num; rw [Finset.sum_range_add]

/-- The first run starts from nothing. -/
theorem den_first (s w : ℕ → ℝ) (μ' : ℝ) (T : ℕ) :
    ∑ x ∈ Finset.range T, Real.exp (s (0 + x) - μ') * w (0 + x) = den s w μ' (0 + T) := by
  unfold den; simp

theorem num_first (s w u : ℕ → ℝ) (μ' : ℝ) (T : ℕ) :
    ∑ x ∈ Finset.range T, Real.exp (s (0 + x) - μ') * w (0 + x) * u (0 + x) = num s w u μ' (0 + T) := by
  unfold num; simp

/-! ## The quotient law -/

/-- The total of the exponentials at shift `μ` over a nonempty range is positive. -/
theorem norm_pos (s : ℕ → ℝ) (μ : ℝ) {N : ℕ} (hN : 0 < N) : 0 < ∑ j ∈ Finset.range N, Real.exp (s j - μ) :=
  Finset.sum_pos (fun j _ => Real.exp_pos _) (Finset.nonempty_range_iff.2 hN.ne')

/-- The doubly normalised weights: exponentials over their total, times the trust weight. -/
def attn (s w : ℕ → ℝ) (μ : ℝ) (N : ℕ) (j : ℕ) : ℝ :=
  Real.exp (s j - μ) * (1 / ∑ i ∈ Finset.range N, Real.exp (s i - μ)) * w j

/-- Their total is the running total over the normaliser. -/
theorem sum_attn (s w : ℕ → ℝ) (μ : ℝ) (N : ℕ) :
    ∑ j ∈ Finset.range N, attn s w μ N j = den s w μ N * (1 / ∑ i ∈ Finset.range N, Real.exp (s i - μ)) := by
  unfold attn den
  rw [Finset.sum_mul]
  exact Finset.sum_congr rfl fun j _ => by ring

/-- The running quotient at ANY shift `μK` is the sum of the values against the weights normalised twice at shift `μR`,
    provided the second normaliser is not zero. -/
theorem quotient_law (s w u : ℕ → ℝ) (μK μR : ℝ) {N : ℕ} (hN : 0 < N)
    (hS : ∑ j ∈ Finset.range N, attn s w μR N j ≠ 0) :
    num s w u μK N * (1 / den s w μK N)
      = ∑ j ∈ Finset.range N, attn s w μR N j * (1 / ∑ i ∈ Finset.range N, attn s w μR N i) * u j := by
  have hZ := (norm_pos s μR hN).ne'
  rw [sum_attn] at hS ⊢
  have hD : den s w μR N ≠ 0 := fun h => hS (by rw [h, zero_mul])
  have hκ : Real.exp (μR - μK) ≠ 0 := (Real.exp_pos _).ne'
  rw [← num_rescale s w u μR μK, ← den_rescale s w μR μK]
  have hR : ∑ j ∈ Finset.range N, attn s w μR N j
        * (1 / (den s w μR N * (1 / ∑ i ∈ Finset.range N, Real.exp (s i - μR)))) * u j
      = num s w u μR N * (1 / den s w μR N) := by
    unfold num
    rw [Finset.sum_mul]
    refine Finset.sum_congr rfl fun j _ => ?_
    unfold attn
    field_simp
  rw [hR]
  field_simp

/-! ## The same facts in the extended reals -/

/-- The coercion of the reals carries a finite sum to the sum of the coercions. -/
theorem coe_sum {ι : Type} (S : Finset ι) (f : ι → ℝ) :
    ((∑ i ∈ S, f i : ℝ) : EReal) = ∑ i ∈ S, ((f i : ℝ) : EReal) := by
  classical
  induction S using Finset.induction_on with
  | empty => simp
  | insert a S ha ih => rw [Finset.sum_insert ha, Finset.sum_insert ha, EReal.coe_add, ih]

/-- A shifted exponential of reals times a real weight. -/
theorem exp_sub_mul_coe (a μ b : ℝ) :
    Ideal.exp ((a : EReal) - (μ : EReal)) * (b : EReal) = ((Real.exp (a - μ) * b : ℝ) : EReal) := by
  rw [← EReal.coe_sub, Ideal.exp_coe, ← EReal.coe_mul]

/-- Rescaling a real running total by the exponential of a difference of real shifts. -/
theorem exp_sub_mul_coe' (μ μ' l : ℝ) :
    Ideal.exp ((μ : EReal) - (μ' : EReal)) * (l : EReal) = ((Real.exp (μ - μ') * l : ℝ) : EReal) :=
  exp_sub_mul_coe μ μ' l

/-- From `−∞` the rescaling factor is zero, whatever was stored. -/
theorem exp_bot_sub_mul (μ' : ℝ) (x : EReal) : Ideal.exp ((⊥ : EReal) - (μ' : EReal)) * x = 0 := by
  have : (⊥ : EReal) - (μ' : EReal) = ⊥ := by
    rw [sub_eq_add_neg, ← EReal.coe_neg]; exact EReal.bot_add _
  rw [this, Ideal.exp_bot, zero_mul]

/-- A quotient of reals by a nonzero real. -/
theorem div_coe_coe (a : ℝ) {b : ℝ} (hb : b ≠ 0) : Ideal.div (a : EReal) (b : EReal) = ((a * (1 / b) : ℝ) : EReal) := by
  rw [Ideal.div_coe hb, ← EReal.coe_mul]

/-- The maximum of a real and the largest of finitely many reals (none: `−∞`) is a real. -/
theorem max_coe_fold_real {ι : Type} (S : Finset ι) (f : ι → ℝ) (μ : ℝ) :
    ∃ r : ℝ, max (μ : EReal) (S.fold max (⊥ : EReal) fun i => ((f i : ℝ) : EReal)) = (r : EReal) := by
  classical
  induction S using Finset.induction_on with
  | empty => exact ⟨μ, by simp⟩
  | insert a S ha ih =>
    obtain ⟨r, hr⟩ := ih
    refine ⟨max (f a) r, ?_⟩
    have hm : ((max (f a) r : ℝ) : EReal) = max ((f a : ℝ) : EReal) (r : EReal) :=
      EReal.coe_strictMono.monotone.map_max
    rw [Finset.fold_insert ha, hm, ← hr, max_left_comm]

/-- The largest of a nonempty finite family of reals, started from `−∞`, is a real. -/
theorem max_bot_fold_real {ι : Type} (S : Finset ι) (hS : S.Nonempty) (f : ι → ℝ) :
    ∃ r : ℝ, max (⊥ : EReal) (S.fold max (⊥ : EReal) fun i => ((f i : ℝ) : EReal)) = (r : EReal) := by
  classical
  obtain ⟨a, ha⟩ := hS
  obtain ⟨r, hr⟩ := max_coe_fold_real (S.erase a) f (f a)
  refine ⟨r, ?_⟩
  rw [bot_sup_eq, ← Finset.insert_erase ha, Finset.fold_insert (Finset.notMem_erase a S), hr]

end Cert.AttnSpec

end
-- ==== Proof.AttnStep.lean ====
/-
  One grid step carries the running triple forward.

  Suppose the tile's scores, trust weights and value rows are real numbers — entries number n, n+1, …, n+2047 of three
  real sequences s, w and (one per output column d) u_d. If the step begins with the shift at −∞ and n = 0 (the first
  tile of a row: whatever the totals held, the factor e^{−∞ − m'} = 0 wipes it), or with a real shift μ and the totals at
  den μ n and num μ n (what the step before left), then it ends with a real shift μ' and the totals at den μ' (n + 2048)
  and num μ' (n + 2048): the rescaling identity of the running sums, read in the extended reals.
-/
import proofs.«177233_j33681133535371_2_alg».proof.Proof.AttnTile
import proofs.«177233_j33681133535371_2_alg».proof.Proof.AttnSpec

open scoped BigOperators

noncomputable section

namespace Cert.KernelIdeal.Step

open Cert.KernelIdeal Cert.KernelIdeal.Tile Cert.AttnSpec Idealize.ShloMosaic Idealize.ShloMosaic.ValueIdx

theorem tile_step (s w : ℕ → ℝ) (u : Fin 512 → ℕ → ℝ) (n : ℕ)
    (x0 : Vec Ideal S1x1x512 .f32) (x1 x2 : Vec Ideal S1x2048x512 .f32) (x3 : Vec Ideal S1x1x2048 .f32)
    (hsc : ∀ j : Fin 2048, sc x0 x1 x3 j = ((s (n + j.val) : ℝ) : EReal))
    (hw : ∀ j : Fin 2048, x3 (ix3 (0 : Fin 1) (0 : Fin 1) j) = ((w (n + j.val) : ℝ) : EReal))
    (hu : ∀ (j : Fin 2048) (d : Fin 512), x2 (ix3 (0 : Fin 1) j d) = ((u d (n + j.val) : ℝ) : EReal))
    (mp lp : EReal) (ap : Fin 512 → EReal)
    (hprev : (mp = ⊥ ∧ n = 0) ∨ ∃ μ : ℝ, mp = (μ : EReal) ∧ lp = ((den s w μ n : ℝ) : EReal)
      ∧ ∀ d, ap d = ((num s w (u d) μ n : ℝ) : EReal)) :
    ∃ μ' : ℝ, mN x0 x1 x3 mp = (μ' : EReal)
      ∧ Ideal.exp (mp - mN x0 x1 x3 mp) * lp
          + ∑ j : Fin 2048, Ideal.exp (sc x0 x1 x3 j - mN x0 x1 x3 mp) * x3 (ix3 (0 : Fin 1) (0 : Fin 1) j)
          = ((den s w μ' (n + 2048) : ℝ) : EReal)
      ∧ ∀ d : Fin 512, Ideal.exp (mp - mN x0 x1 x3 mp) * ap d
            + ∑ j : Fin 2048, (Ideal.exp (sc x0 x1 x3 j - mN x0 x1 x3 mp) * x3 (ix3 (0 : Fin 1) (0 : Fin 1) j))
                * x2 (ix3 (0 : Fin 1) j d)
          = ((num s w (u d) μ' (n + 2048) : ℝ) : EReal) := by
  have hscf : sc x0 x1 x3 = fun j : Fin 2048 => ((s (n + j.val) : ℝ) : EReal) := funext hsc
  have hm : ∃ μ' : ℝ, mN x0 x1 x3 mp = (μ' : EReal) := by
    unfold mN; rw [hscf]
    rcases hprev with ⟨hb, _⟩ | ⟨μ, hμ, _, _⟩
    · rw [hb]; exact max_bot_fold_real Finset.univ Finset.univ_nonempty _
    · rw [hμ]; exact max_coe_fold_real Finset.univ _ μ
  obtain ⟨μ', hμ'⟩ := hm
  refine ⟨μ', hμ', ?_, fun d => ?_⟩
  · rw [hμ']
    have hsum : ∑ j : Fin 2048, Ideal.exp (sc x0 x1 x3 j - (μ' : EReal)) * x3 (ix3 (0 : Fin 1) (0 : Fin 1) j)
        = ((∑ x ∈ Finset.range 2048, Real.exp (s (n + x) - μ') * w (n + x) : ℝ) : EReal) := by
      rw [← Fin.sum_univ_eq_sum_range (fun x => Real.exp (s (n + x) - μ') * w (n + x)) 2048, coe_sum]
      exact Finset.sum_congr rfl fun j _ => by rw [hsc, hw, exp_sub_mul_coe]
    rw [hsum]
    rcases hprev with ⟨hb, hn⟩ | ⟨μ, hμ, hl, _⟩
    · subst hn
      rw [hb, exp_bot_sub_mul, zero_add, den_first]
    · rw [hμ, hl, exp_sub_mul_coe', ← EReal.coe_add, den_step]
  · rw [hμ']
    have hsum : ∑ j : Fin 2048, (Ideal.exp (sc x0 x1 x3 j - (μ' : EReal)) * x3 (ix3 (0 : Fin 1) (0 : Fin 1) j))
          * x2 (ix3 (0 : Fin 1) j d)
        = ((∑ x ∈ Finset.range 2048, Real.exp (s (n + x) - μ') * w (n + x) * u d (n + x) : ℝ) : EReal) := by
      rw [← Fin.sum_univ_eq_sum_range (fun x => Real.exp (s (n + x) - μ') * w (n + x) * u d (n + x)) 2048, coe_sum]
      exact Finset.sum_congr rfl fun j _ => by rw [hsc, hw, hu, exp_sub_mul_coe, ← EReal.coe_mul]
    rw [hsum]
    rcases hprev with ⟨hb, hn⟩ | ⟨μ, hμ, _, ha⟩
    · subst hn
      rw [hb, exp_bot_sub_mul, zero_add, num_first]
    · rw [hμ, ha d, exp_sub_mul_coe', ← EReal.coe_add, num_step]

/-- The tile's scores are real when the query row, the key rows and the trust weights are. -/
theorem sc_real (x0 : Vec Ideal S1x1x512 .f32) (x1 : Vec Ideal S1x2048x512 .f32) (x3 : Vec Ideal S1x1x2048 .f32)
    (q k : Fin 512 → ℝ) (w : ℝ) (j : Fin 2048)
    (h0 : ∀ d, x0 (ix3 (0 : Fin 1) (0 : Fin 1) d) = ((q d : ℝ) : EReal))
    (h1 : ∀ d, x1 (ix3 (0 : Fin 1) j d) = ((k d : ℝ) : EReal))
    (h3 : x3 (ix3 (0 : Fin 1) (0 : Fin 1) j) = ((w : ℝ) : EReal)) :
    sc x0 x1 x3 j = (((∑ d : Fin 512, q d * (524288 / 11863283 : ℝ) * k d) * w : ℝ) : EReal) := by
  unfold sc cS
  rw [h3, EReal.coe_mul, coe_sum]
  refine congrArg (· * ((w : ℝ) : EReal)) (Finset.sum_congr rfl fun d _ => ?_)
  rw [h0, h1, EReal.coe_mul, EReal.coe_mul]

/-- The same step, stated on the body's own terms: what it stores into the three carried arrays, from what they held. -/
theorem step_payloads (s w : ℕ → ℝ) (u : Fin 512 → ℕ → ℝ) (n : ℕ)
    (x0 : Vec Ideal S1x1x512 .f32) (x1 x2 : Vec Ideal S1x2048x512 .f32) (x3 : Vec Ideal S1x1x2048 .f32)
    (hsc : ∀ j : Fin 2048, sc x0 x1 x3 j = ((s (n + j.val) : ℝ) : EReal))
    (hw : ∀ j : Fin 2048, x3 (ix3 (0 : Fin 1) (0 : Fin 1) j) = ((w (n + j.val) : ℝ) : EReal))
    (hu : ∀ (j : Fin 2048) (d : Fin 512), x2 (ix3 (0 : Fin 1) j d) = ((u d (n + j.val) : ℝ) : EReal))
    (v15 v25 : Vec Ideal S1x1x1 .f32) (v35 : Vec Ideal S1x1x512 .f32)
    (hprev : (v15 o = ⊥ ∧ n = 0) ∨ ∃ μ : ℝ, v15 o = (μ : EReal) ∧ v25 o = ((den s w μ n : ℝ) : EReal)
      ∧ ∀ d, v35 (ix3 (0 : Fin 1) (0 : Fin 1) d) = ((num s w (u d) μ n : ℝ) : EReal)) :
    ∃ μ' : ℝ, Gen.k0_pay3 (F := Ideal) (Gen.k0_pay10 x0 x1 x3 v15) o = (μ' : EReal)
      ∧ Gen.k0_pay1 (F := Ideal) (Gen.k0_pay13 x0 x1 x3 v15 v25) o = ((den s w μ' (n + 2048) : ℝ) : EReal)
      ∧ ∀ d : Fin 512, Gen.k0_pay2 (F := Ideal) (Gen.k0_pay8 x2) (Gen.k0_pay11 x0 x1 x3 v15) (Gen.k0_pay12 x0 x1 x3 v15) v35
            (ix3 (0 : Fin 1) (0 : Fin 1) d) = ((num s w (u d) μ' (n + 2048) : ℝ) : EReal) := by
  obtain ⟨μ', h1, h2, h3⟩ := tile_step s w u n x0 x1 x2 x3 hsc hw hu (v15 o) (v25 o)
    (fun d => v35 (ix3 (0 : Fin 1) (0 : Fin 1) d)) hprev
  refine ⟨μ', ?_, ?_, fun d => ?_⟩
  · rw [pay3_eq, pay10_apply]; exact h1
  · rw [pay1_eq, pay13_apply]; exact h2
  · rw [pay2_apply, pay11_apply]
    have e : ∀ j : Fin 2048, Gen.k0_pay12 (F := Ideal) x0 x1 x3 v15 (ix3 (0 : Fin 1) (0 : Fin 1) j)
          * Gen.k0_pay8 (F := Ideal) x2 (ix3 (0 : Fin 1) j d)
        = (Ideal.exp (sc x0 x1 x3 j - mN x0 x1 x3 (v15 o)) * x3 (ix3 (0 : Fin 1) (0 : Fin 1) j)) * x2 (ix3 (0 : Fin 1) j d) :=
      fun j => by rw [pay12_apply, pay8_apply]
    rw [Finset.sum_congr rfl fun j _ => e j]
    exact h3 d

/-- At the last tile the output entry is the quotient of the new totals, a real quotient when the total is not zero. -/
theorem out_payload (v48 : Vec Ideal S1x1x512 .f32) (v49 : Vec Ideal S1x1x1 .f32) (d : Fin 512) (a l : ℝ) (hl : l ≠ 0)
    (ha : v48 (ix3 (0 : Fin 1) (0 : Fin 1) d) = ((a : ℝ) : EReal)) (hl' : v49 o = ((l : ℝ) : EReal)) :
    Gen.k0_pay4 (F := Ideal) v48 v49 (ix3 (0 : Fin 1) (0 : Fin 1) d) = ((a * (1 / l) : ℝ) : EReal) := by
  rw [pay4_apply, ha, hl', div_coe_coe a hl]

end Cert.KernelIdeal.Step

end
-- ==== Proof.AttnBlocks.lean ====
/-
  Where each grid step's blocks sit in the arrays. Step t works on batch row t / 4 and on key tile t mod 4: its query block
  is row t / 4 of the sliced query, its key and value blocks are rows 2048·(t mod 4) … 2048·(t mod 4) + 2047 of batch
  t / 4, its trust block the same stretch of that row's weights, and its output block is row t / 4 of the result. The
  sliced query the region is launched on is position 0 of every batch row of the query argument.
-/
import proofs.«177233_j33681133535371_2_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The printed index maps, decided once over the grid. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = t.val % 4 ∧ win0_2.index t (2 : Fin 3) = 0
    ∧ win0_3.index t (0 : Fin 3) = t.val / 4 ∧ win0_3.index t (1 : Fin 3) = 0 ∧ win0_3.index t (2 : Fin 3) = t.val % 4
    ∧ win0_4.index t (0 : Fin 3) = t.val / 4 ∧ win0_4.index t (1 : Fin 3) = 0 ∧ win0_4.index t (2 : Fin 3) = 0 :=
  (by decide +kernel : ∀ t : Fin grid0.N, _)

/-- The array the query window stages is the slice of the query argument at position 0. -/
theorem V_query (c : Dev nD) :
    (V m c main_v0 : S32x1x512.Idx → EReal)
      = extractStridedSlice S32x1x512 ![0, 0, 0] (m ((c : Thread nD τ).loc main_arg0)) slices_S32x16x512_S32x1x512_0_0_0 := by
  dsimp only [V, hostOps0]; after_results

theorem blk0 (c : Dev nD) (t : Fin cfg0.N) (d : Fin 512) (i : S32x16x512.Idx)
    (h0 : (i 0).val = t.val / 4) (h1 : (i 1).val = 0) (h2 : (i 2).val = d.val) :
    (iblk m c 0 t : Vec Ideal S1x1x512 .f32) (ix3 (0 : Fin 1) (0 : Fin 1) d) = m ((c : Thread nD τ).loc main_arg0) i := by
  obtain ⟨e0, e1, e2, -⟩ := idx_facts t
  unfold iblk
  rw [View.read_apply]
  show V m c main_v0 _ = _
  rw [V_query]
  refine extractStridedSlice_apply _ _ _ _ i fun a => ?_
  match a with
  | ⟨0, _⟩ => show (i 0).val = 0 + (win0_0.index t (0 : Fin 3) * 1 + 1 * 0); rw [e0, h0]; omega
  | ⟨1, _⟩ => show (i 1).val = 0 + (win0_0.index t (1 : Fin 3) * 1 + 1 * 0); rw [e1, h1]
  | ⟨2, _⟩ => show (i 2).val = 0 + (win0_0.index t (2 : Fin 3) * 512 + 1 * d.val); rw [e2, h2]; omega

theorem blk1 (c : Dev nD) (t : Fin cfg0.N) (j : Fin 2048) (d : Fin 512) (i : S32x8192x512.Idx)
    (h0 : (i 0).val = t.val / 4) (h1 : (i 1).val = 2048 * (t.val % 4) + j.val) (h2 : (i 2).val = d.val) :
    (iblk m c 1 t : Vec Ideal S1x2048x512 .f32) (ix3 (0 : Fin 1) j d) = m ((c : Thread nD τ).loc main_arg1) i := by
  obtain ⟨-, -, -, e0, e1, e2, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 3) * 1 + 1 * 0 = (i 0).val; rw [e0, h0]; omega
  | ⟨1, _⟩ => show win0_1.index t (1 : Fin 3) * 2048 + 1 * j.val = (i 1).val; rw [e1, h1]; omega
  | ⟨2, _⟩ => show win0_1.index t (2 : Fin 3) * 512 + 1 * d.val = (i 2).val; rw [e2, h2]; omega

theorem blk2 (c : Dev nD) (t : Fin cfg0.N) (j : Fin 2048) (d : Fin 512) (i : S32x8192x512.Idx)
    (h0 : (i 0).val = t.val / 4) (h1 : (i 1).val = 2048 * (t.val % 4) + j.val) (h2 : (i 2).val = d.val) :
    (iblk m c 2 t : Vec Ideal S1x2048x512 .f32) (ix3 (0 : Fin 1) j d) = m ((c : Thread nD τ).loc main_arg2) i := by
  obtain ⟨-, -, -, -, -, -, e0, e1, e2, -⟩ := idx_facts t
  unfold iblk
  rw [View.read_apply]
  show V m c main_arg2 _ = _
  rw [V_main_arg2]
  refine congrArg _ (funext fun a => Fin.ext ?_)
  match a with
  | ⟨0, _⟩ => show win0_2.index t (0 : Fin 3) * 1 + 1 * 0 = (i 0).val; rw [e0, h0]; omega
  | ⟨1, _⟩ => show win0_2.index t (1 : Fin 3) * 2048 + 1 * j.val = (i 1).val; rw [e1, h1]; omega
  | ⟨2, _⟩ => show win0_2.index t (2 : Fin 3) * 512 + 1 * d.val = (i 2).val; rw [e2, h2]; omega

theorem blk3 (c : Dev nD) (t : Fin cfg0.N) (j : Fin 2048) (i : S32x1x8192.Idx)
    (h0 : (i 0).val = t.val / 4) (h1 : (i 1).val = 0) (h2 : (i 2).val = 2048 * (t.val % 4) + j.val) :
    (iblk m c 3 t : Vec Ideal S1x1x2048 .f32) (ix3 (0 : Fin 1) (0 : Fin 1) j) = m ((c : Thread nD τ).loc main_arg3) i := by
  obtain ⟨-, -, -, -, -, -, -, -, -, e0, e1, e2, -⟩ := idx_facts t
  unfold iblk
  rw [View.read_apply]
  show V m c main_arg3 _ = _
  rw [V_main_arg3]
  refine congrArg _ (funext fun a => Fin.ext ?_)
  match a with
  | ⟨0, _⟩ => show win0_3.index t (0 : Fin 3) * 1 + 1 * 0 = (i 0).val; rw [e0, h0]; omega
  | ⟨1, _⟩ => show win0_3.index t (1 : Fin 3) * 1 + 1 * 0 = (i 1).val; rw [e1, h1]
  | ⟨2, _⟩ => show win0_3.index t (2 : Fin 3) * 2048 + 1 * j.val = (i 2).val; rw [e2, h2]; omega

end Cert.KernelIdeal.Blocks

end
-- ==== Proof.AttnResult.lean ====
/-
  The result both programs compute, as one function of the four argument arrays (query [32,16,512], key and value
  [32,8192,512], trust [32,1,8192]) when their entries are real numbers. For batch row b only query position 0 is used:
      s_j = (∑_d q_{b,0,d} · (1/D) · key_{b,j,d}) · trust_{b,0,j}
  and the result at (b, 0, d) is the quotient  (∑_j e^{s_j} · trust_j · value_{b,j,d}) / (∑_j e^{s_j} · trust_j)  — written at
  shift 0; the quotient is the same at every shift (AttnSpec). The real sequences are indexed by natural numbers (zero past
  the 8192 keys), so that a row's sum can be taken tile by tile.
-/
import proofs.«177233_j33681133535371_2_alg».proof.Proof.AttnSpec
import Idealize.ShloMosaic.Lib.ValueIdx

open scoped BigOperators

noncomputable section

namespace Cert.AttnSpec

open Idealize.ShloMosaic Idealize.ShloMosaic.ValueIdx

abbrev Sq : Shape := ⟨3, ![32, 16, 512]⟩
abbrev Sk : Shape := ⟨3, ![32, 8192, 512]⟩
abbrev St : Shape := ⟨3, ![32, 1, 8192]⟩
abbrev So : Shape := ⟨3, ![32, 1, 512]⟩

/-- The scale 1/D, D the reference's divisor 11863283 / 2^19. -/
def cR : ℝ := 524288 / 11863283

/-- Row `b`'s trust weights. -/
def wN (a3 : St.Idx → EReal) (b : Fin 32) (j : ℕ) : ℝ :=
  if h : j < 8192 then (a3 (ix3 b (0 : Fin 1) (⟨j, h⟩ : Fin 8192))).toReal else 0

/-- Row `b`'s trust-weighted scores. -/
def sN (a0 : Sq.Idx → EReal) (a1 : Sk.Idx → EReal) (a3 : St.Idx → EReal) (b : Fin 32) (j : ℕ) : ℝ :=
  if h : j < 8192 then
    (∑ d : Fin 512, (a0 (ix3 b (0 : Fin 16) d)).toReal * cR * (a1 (ix3 b (⟨j, h⟩ : Fin 8192) d)).toReal)
      * (a3 (ix3 b (0 : Fin 1) (⟨j, h⟩ : Fin 8192))).toReal
  else 0

/-- Column `d` of row `b`'s value rows. -/
def uN (a2 : Sk.Idx → EReal) (b : Fin 32) (d : Fin 512) (j : ℕ) : ℝ :=
  if h : j < 8192 then (a2 (ix3 b (⟨j, h⟩ : Fin 8192) d)).toReal else 0

/-- The result array. -/
def G (a0 : Sq.Idx → EReal) (a1 a2 : Sk.Idx → EReal) (a3 : St.Idx → EReal) : So.Idx → EReal := fun i =>
  ((num (sN a0 a1 a3 (i 0)) (wN a3 (i 0)) (uN a2 (i 0) (i 2)) 0 8192
      * (1 / den (sN a0 a1 a3 (i 0)) (wN a3 (i 0)) 0 8192) : ℝ) : EReal)

/-- A real entry is the coercion of its real part. -/
theorem coe_toReal_of_real {x : EReal} (h : ∃ r : ℝ, x = (r : EReal)) : ((x.toReal : ℝ) : EReal) = x := by
  obtain ⟨r, rfl⟩ := h; rw [EReal.toReal_coe]

/-- The running total is nonzero at one shift iff at every shift. -/
theorem den_ne_zero_shift (s w : ℕ → ℝ) {μ : ℝ} {n : ℕ} (h : den s w μ n ≠ 0) (μ' : ℝ) : den s w μ' n ≠ 0 := by
  rw [← den_rescale s w μ μ']
  exact mul_ne_zero (Real.exp_pos _).ne' h

/-- The quotient does not depend on the shift. -/
theorem quot_shift (s w u : ℕ → ℝ) {μ : ℝ} {n : ℕ} (h : den s w μ n ≠ 0) (μ' : ℝ) :
    num s w u μ n * (1 / den s w μ n) = num s w u μ' n * (1 / den s w μ' n) := by
  have hκ : Real.exp (μ - μ') ≠ 0 := (Real.exp_pos _).ne'
  rw [← num_rescale s w u μ μ', ← den_rescale s w μ μ']
  field_simp

/-- The second normaliser of the doubly normalised weights is nonzero exactly when the running total is. -/
theorem den_ne_zero_of_attn (s w : ℕ → ℝ) (μ : ℝ) {N : ℕ}
    (hS : ∑ j ∈ Finset.range N, attn s w μ N j ≠ 0) : den s w μ N ≠ 0 := by
  rw [sum_attn] at hS
  exact fun h => hS (by rw [h, zero_mul])

end Cert.AttnSpec

end
-- ==== Proof.AttnKernel.lean ====
/-
  The kernel's result array.

  Grid step t works on batch row b = t / 4 and key tile t mod 4. After it, the three arrays the body carries hold, for some
  real shift μ, the shift itself and the running totals den μ and num μ (AttnSpec) over the row's first 2048·(t mod 4 + 1)
  keys: at a row's first tile because the body starts from −∞ and zeros, afterwards by the rescaling identity applied to what
  the step before left (an induction over the 128 steps in launch order). At a row's last tile the body writes the quotient
  num μ / den μ over all 8192 keys into the row's output block — the same number at every shift, so the result array is the
  function G of the four arguments (AttnResult), provided every row's total is not zero. The output blocks are the 32 rows,
  each written once, so they cover the array.
-/
import proofs.«177233_j33681133535371_2_alg».proof.Proof.Gen.KernelIdeal.Value
import proofs.«177233_j33681133535371_2_alg».proof.Proof.AttnPieces
import proofs.«177233_j33681133535371_2_alg».proof.Proof.AttnStep
import proofs.«177233_j33681133535371_2_alg».proof.Proof.AttnBlocks
import proofs.«177233_j33681133535371_2_alg».proof.Proof.AttnResult

set_option maxRecDepth 16384

open scoped BigOperators

noncomputable section

namespace Cert.KernelIdeal.AttnValue

open Cert.KernelIdeal Cert.KernelIdeal.Gen Cert.KernelIdeal.Value Cert.KernelIdeal.Tile Cert.KernelIdeal.Step
open Cert.KernelIdeal.Blocks Cert.AttnSpec
open Idealize.ShloMosaic Idealize.ShloMosaic.TcCoe Idealize.ShloMosaic.ValueIdx Idealize.SL.Sem

variable (m : (ℓ : Loc nD τ sig) → Buf (Elt Ideal) ℓ) (ρ : Dev nD → PrngReg)

/-- Every entry of the four argument arrays is a real number. -/
def RealArgs (c : Dev nD) : Prop :=
  (∀ i : S32x16x512.Idx, ∃ r : ℝ, (m ((c : Thread nD τ).loc main_arg0)) i = (r : EReal))
  ∧ (∀ i : S32x8192x512.Idx, ∃ r : ℝ, (m ((c : Thread nD τ).loc main_arg1)) i = (r : EReal))
  ∧ (∀ i : S32x8192x512.Idx, ∃ r : ℝ, (m ((c : Thread nD τ).loc main_arg2)) i = (r : EReal))
  ∧ (∀ i : S32x1x8192.Idx, ∃ r : ℝ, (m ((c : Thread nD τ).loc main_arg3)) i = (r : EReal))

/-- The batch row of grid step `n`. -/
def bN (n : ℕ) : Fin 32 := ⟨n / 4 % 32, Nat.mod_lt _ (by norm_num)⟩

theorem bN_val {n : ℕ} (h : n < 128) : (bN n).val = n / 4 := by show n / 4 % 32 = n / 4; omega

/-! ## The step's blocks are the row's real sequences on the tile's stretch -/

theorem hsc_blk (c : Dev nD) (hr : RealArgs m c) (t : Fin cfg0.N) (j : Fin 2048) :
    sc (iblk m c 0 t : Vec Ideal S1x1x512 .f32) (iblk m c 1 t : Vec Ideal S1x2048x512 .f32) (iblk m c 3 t : Vec Ideal S1x1x2048 .f32) j
      = (((sN (m ((c : Thread nD τ).loc main_arg0)) (m ((c : Thread nD τ).loc main_arg1)) (m ((c : Thread nD τ).loc main_arg3)) (bN t.val)) (2048 * (t.val % 4) + j.val) : ℝ) : EReal) := by
  have hN : t.val < 128 := lt_of_lt_of_eq t.isLt (show cfg0.N = 128 from N_0)
  have hj := j.isLt
  have hlt : 2048 * (t.val % 4) + j.val < 8192 := by omega
  have hb := bN_val hN
  refine (sc_real _ _ _ (fun d => ((m ((c : Thread nD τ).loc main_arg0)) (ix3 (bN t.val) (0 : Fin 16) d)).toReal)
      (fun d => ((m ((c : Thread nD τ).loc main_arg1)) (ix3 (bN t.val) (⟨2048 * (t.val % 4) + j.val, hlt⟩ : Fin 8192) d)).toReal)
      (((m ((c : Thread nD τ).loc main_arg3)) (ix3 (bN t.val) (0 : Fin 1) (⟨2048 * (t.val % 4) + j.val, hlt⟩ : Fin 8192))).toReal) j
      (fun d => (blk0 m c t d _ hb rfl rfl).trans (coe_toReal_of_real (hr.1 _)).symm)
      (fun d => (blk1 m c t j d _ hb rfl rfl).trans (coe_toReal_of_real (hr.2.1 _)).symm)
      ((blk3 m c t j _ hb rfl rfl).trans (coe_toReal_of_real (hr.2.2.2 _)).symm)).trans ?_
  unfold sN cR; rw [dif_pos hlt]

theorem hw_blk (c : Dev nD) (hr : RealArgs m c) (t : Fin cfg0.N) (j : Fin 2048) :
    (iblk m c 3 t : Vec Ideal S1x1x2048 .f32) (ix3 (0 : Fin 1) (0 : Fin 1) j)
      = (((wN (m ((c : Thread nD τ).loc main_arg3)) (bN t.val)) (2048 * (t.val % 4) + j.val) : ℝ) : EReal) := by
  have hN : t.val < 128 := lt_of_lt_of_eq t.isLt (show cfg0.N = 128 from N_0)
  have hj := j.isLt
  have hlt : 2048 * (t.val % 4) + j.val < 8192 := by omega
  have hb := bN_val hN
  unfold wN; rw [dif_pos hlt]
  exact (blk3 m c t j _ hb rfl rfl).trans (coe_toReal_of_real (hr.2.2.2 _)).symm

theorem hu_blk (c : Dev nD) (hr : RealArgs m c) (t : Fin cfg0.N) (j : Fin 2048) (d : Fin 512) :
    (iblk m c 2 t : Vec Ideal S1x2048x512 .f32) (ix3 (0 : Fin 1) j d)
      = ((uN (m ((c : Thread nD τ).loc main_arg2)) (bN t.val) d (2048 * (t.val % 4) + j.val) : ℝ) : EReal) := by
  have hN : t.val < 128 := lt_of_lt_of_eq t.isLt (show cfg0.N = 128 from N_0)
  have hj := j.isLt
  have hlt : 2048 * (t.val % 4) + j.val < 8192 := by omega
  have hb := bN_val hN
  unfold uN; rw [dif_pos hlt]
  exact (blk2 m c t j d _ hb rfl rfl).trans (coe_toReal_of_real (hr.2.2.1 _)).symm

/-! ## The invariant -/

/-- A shift and two running totals over the first `nk` keys of a row. -/
def InvAt (s w : ℕ → ℝ) (u : Fin 512 → ℕ → ℝ) (nk : ℕ) (v15 v25 : Vec Ideal S1x1x1 .f32) (v35 : Vec Ideal S1x1x512 .f32) : Prop :=
  ∃ μ : ℝ, v15 o = (μ : EReal) ∧ v25 o = ((den s w μ nk : ℝ) : EReal)
    ∧ ∀ d : Fin 512, v35 (ix3 (0 : Fin 1) (0 : Fin 1) d) = ((num s w (u d) μ nk : ℝ) : EReal)

/-- After grid step `n` the carried arrays hold the row's totals over its first 2048·(n mod 4 + 1) keys. -/
def Inv (c : Dev nD) (n : ℕ) (hn : n < cfg0.N) : Prop :=
  InvAt (sN (m ((c : Thread nD τ).loc main_arg0)) (m ((c : Thread nD τ).loc main_arg1)) (m ((c : Thread nD τ).loc main_arg3)) (bN n)) (wN (m ((c : Thread nD τ).loc main_arg3)) (bN n)) (fun d : Fin 512 => uN (m ((c : Thread nD τ).loc main_arg2)) (bN n) d) (2048 * (n % 4) + 2048)
    (outsAt0 m c n hn).2.1 (outsAt0 m c n hn).2.2.1 (outsAt0 m c n hn).2.2.2

theorem inv_first (c : Dev nD) (hr : RealArgs m c) (t : Fin cfg0.N) (h0 : t.val % 4 = 0) : Inv m c t.val t.isLt := by
  have h1 : ¬ t.val % 4 = 3 := by omega
  unfold Inv
  rw [outsAt0_A m c t h0 h1]
  dsimp only
  rw [Pieces.first_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    Pieces.first_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    Pieces.first_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)]
  exact step_payloads (sN (m ((c : Thread nD τ).loc main_arg0)) (m ((c : Thread nD τ).loc main_arg1)) (m ((c : Thread nD τ).loc main_arg3)) (bN t.val)) (wN (m ((c : Thread nD τ).loc main_arg3)) (bN t.val)) (fun d : Fin 512 => uN (m ((c : Thread nD τ).loc main_arg2)) (bN t.val) d) (2048 * (t.val % 4))
    (iblk m c 0 t) (iblk m c 1 t) (iblk m c 2 t) (iblk m c 3 t)
    (hsc_blk m c hr t) (hw_blk m c hr t) (hu_blk m c hr t) _ _ _
    (Or.inl ⟨pay5_apply o, by omega⟩)

theorem inv_next (c : Dev nD) (hr : RealArgs m c) (t : Fin cfg0.N) (h0 : ¬ t.val % 4 = 0)
    (hp : Inv m c (t.val - 1) (Nat.lt_of_le_of_lt (Nat.sub_le _ _) t.isLt)) : Inv m c t.val t.isLt := by
  have hN : t.val < 128 := lt_of_lt_of_eq t.isLt (show cfg0.N = 128 from N_0)
  have hb : bN (t.val - 1) = bN t.val := Fin.ext (by show (t.val - 1) / 4 % 32 = t.val / 4 % 32; omega)
  have hk : 2048 * ((t.val - 1) % 4) + 2048 = 2048 * (t.val % 4) := by omega
  unfold Inv at hp
  rw [hb, hk] at hp
  unfold Inv
  by_cases h1 : t.val % 4 = 3
  · rw [outsAt0_C m c t h0 h1]
    dsimp only
    rw [Pieces.last_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      Pieces.last_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      Pieces.last_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    exact step_payloads (sN (m ((c : Thread nD τ).loc main_arg0)) (m ((c : Thread nD τ).loc main_arg1)) (m ((c : Thread nD τ).loc main_arg3)) (bN t.val)) (wN (m ((c : Thread nD τ).loc main_arg3)) (bN t.val)) (fun d : Fin 512 => uN (m ((c : Thread nD τ).loc main_arg2)) (bN t.val) d) (2048 * (t.val % 4))
      (iblk m c 0 t) (iblk m c 1 t) (iblk m c 2 t) (iblk m c 3 t)
      (hsc_blk m c hr t) (hw_blk m c hr t) (hu_blk m c hr t) _ _ _ (Or.inr hp)
  · rw [outsAt0_B m c t h0 h1]
    dsimp only
    rw [Pieces.mid_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      Pieces.mid_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      Pieces.mid_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    exact step_payloads (sN (m ((c : Thread nD τ).loc main_arg0)) (m ((c : Thread nD τ).loc main_arg1)) (m ((c : Thread nD τ).loc main_arg3)) (bN t.val)) (wN (m ((c : Thread nD τ).loc main_arg3)) (bN t.val)) (fun d : Fin 512 => uN (m ((c : Thread nD τ).loc main_arg2)) (bN t.val) d) (2048 * (t.val % 4))
      (iblk m c 0 t) (iblk m c 1 t) (iblk m c 2 t) (iblk m c 3 t)
      (hsc_blk m c hr t) (hw_blk m c hr t) (hu_blk m c hr t) _ _ _ (Or.inr hp)

theorem inv_all (c : Dev nD) (hr : RealArgs m c) : ∀ (n : ℕ) (hn : n < cfg0.N), Inv m c n hn := by
  intro n
  induction n with
  | zero => intro hn; exact inv_first m c hr ⟨0, hn⟩ rfl
  | succ n ih =>
    intro hn
    by_cases h0 : (n + 1) % 4 = 0
    · exact inv_first m c hr ⟨n + 1, hn⟩ h0
    · exact inv_next m c hr ⟨n + 1, hn⟩ h0 (ih (Nat.lt_of_succ_lt hn))

/-! ## The output block at a row's last tile -/

/-- At a row's last tile the output block is the quotient of the two carried totals the same step leaves. -/
theorem out_last (c : Dev nD) (t : Fin cfg0.N) (h0 : ¬ t.val % 4 = 0) (h1 : t.val % 4 = 3) :
    (outsAt0 m c t.val t.isLt).1 = k0_pay4 (F := Ideal) (outsAt0 m c t.val t.isLt).2.2.2 (outsAt0 m c t.val t.isLt).2.2.1 := by
  rw [outsAt0_C m c t h0 h1]
  dsimp only
  rw [Pieces.last_out (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.last_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.last_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]

end Cert.KernelIdeal.AttnValue

end
-- ==== Proof.AttnKernelRun.lean ====
/-
  From the last tile's output block to the whole result array, and the kernel's run with that array named.

  At a row's last tile the carried totals are, for some real shift μ, den μ and num μ over all 8192 keys; the output entry is
  their quotient, a real quotient because the total is not zero, and equal to the quotient at shift 0, which is G. Row b's
  output block is written at grid step 4b + 3 and nowhere else, and the 32 rows are the whole array.
-/
import proofs.«177233_j33681133535371_2_alg».proof.Proof.AttnKernel

set_option maxRecDepth 16384

open scoped BigOperators

noncomputable section

namespace Cert.KernelIdeal.AttnValue

open Cert.KernelIdeal Cert.KernelIdeal.Gen Cert.KernelIdeal.Value Cert.KernelIdeal.Tile Cert.KernelIdeal.Step
open Cert.KernelIdeal.Blocks Cert.AttnSpec
open Idealize.ShloMosaic Idealize.ShloMosaic.TcCoe Idealize.ShloMosaic.ValueIdx Idealize.SL.Sem

variable (m : (ℓ : Loc nD τ sig) → Buf (Elt Ideal) ℓ) (ρ : Dev nD → PrngReg)

/-- Every row's total at shift 0 over all keys is not zero. -/
def DenNe (c : Dev nD) : Prop :=
  ∀ b : Fin 32, den (sN (m ((c : Thread nD τ).loc main_arg0)) (m ((c : Thread nD τ).loc main_arg1)) (m ((c : Thread nD τ).loc main_arg3)) b) (wN (m ((c : Thread nD τ).loc main_arg3)) b) 0 8192 ≠ 0

/-- The result array of device `c`. -/
abbrev Gc (c : Dev nD) : S32x1x512.Idx → EReal := G (m ((c : Thread nD τ).loc main_arg0)) (m ((c : Thread nD τ).loc main_arg1)) (m ((c : Thread nD τ).loc main_arg2)) (m ((c : Thread nD τ).loc main_arg3))

/-- WHAT A FLUSHING POINT WRITES BACK is its block of `G`. -/
theorem flushed_eq (c : Dev nD) (hr : RealArgs m c) (hd : DenNe m c) (t : Fin cfg0.N) (hf : (cfg0.win 4).flush t = true) :
    (dats m 0 c).flushed 4 t = ((cfg0.win 4).blk t).view.read (Elt Ideal) (Gc m c) := by
  have hN : t.val < 128 := lt_of_lt_of_eq t.isLt (show cfg0.N = 128 from N_0)
  have h1 : t.val % 4 = 3 := (flush0_4 t).mp hf
  have h0 : ¬ t.val % 4 = 0 := by omega
  obtain ⟨-, -, -, -, -, -, -, -, -, -, -, -, e0, e1, e2⟩ := idx_facts t
  obtain ⟨μ, -, hl, ha⟩ := inv_all m c hr t.val t.isLt
  rw [flushed4, out_last m c t h0 h1]
  funext y
  show k0_pay4 (F := Ideal) (outsAt0 m c t.val t.isLt).2.2.2 (outsAt0 m c t.val t.isLt).2.2.1 y
    = Gc m c (((cfg0.win 4).blk t).view.emb y)
  have hy0 : (y 0).val < 1 := (y 0).isLt
  have hy1 : (y 1).val < 1 := (y 1).isLt
  have hy2 : (y 2).val < 512 := (y 2).isLt
  have hy : (y : S1x1x512.Idx) = ix3 (0 : Fin 1) (0 : Fin 1) (⟨(y 2).val, hy2⟩ : Fin 512) := by
    funext a; apply Fin.ext
    match a with
    | ⟨0, _⟩ => show (y 0).val = 0; omega
    | ⟨1, _⟩ => show (y 1).val = 0; omega
    | ⟨2, _⟩ => rfl
  obtain ⟨d, hyd, hdv⟩ : ∃ d : Fin 512, (y : S1x1x512.Idx) = ix3 (0 : Fin 1) (0 : Fin 1) d ∧ d.val = (y 2).val :=
    ⟨⟨(y 2).val, hy2⟩, hy, rfl⟩
  have hk : 2048 * (t.val % 4) + 2048 = 8192 := by omega
  rw [hk] at hl ha
  have hden := den_ne_zero_shift _ _ (hd (bN t.val)) μ
  have hi0 : (((cfg0.win 4).blk t).view.emb y) 0 = bN t.val :=
    Fin.ext (by show win0_4.index t (0 : Fin 3) * 1 + 1 * (y 0).val = t.val / 4 % 32; rw [e0]; omega)
  have hi2 : (((cfg0.win 4).blk t).view.emb y) 2 = d :=
    Fin.ext (by show win0_4.index t (2 : Fin 3) * 512 + 1 * (y 2).val = d.val; rw [e2, hdv]; omega)
  refine Eq.trans (b := ((num (sN (m ((c : Thread nD τ).loc main_arg0)) (m ((c : Thread nD τ).loc main_arg1)) (m ((c : Thread nD τ).loc main_arg3)) (bN t.val)) (wN (m ((c : Thread nD τ).loc main_arg3)) (bN t.val)) (uN (m ((c : Thread nD τ).loc main_arg2)) (bN t.val) d) μ 8192
      * (1 / den (sN (m ((c : Thread nD τ).loc main_arg0)) (m ((c : Thread nD τ).loc main_arg1)) (m ((c : Thread nD τ).loc main_arg3)) (bN t.val)) (wN (m ((c : Thread nD τ).loc main_arg3)) (bN t.val)) μ 8192) : ℝ) : EReal)) ?_ ?_
  · refine (congrArg (k0_pay4 (F := Ideal) (outsAt0 m c t.val t.isLt).2.2.2 (outsAt0 m c t.val t.isLt).2.2.1) hyd).trans ?_
    exact out_payload _ _ _ _ _ hden (ha d) hl
  · show _ = G (m ((c : Thread nD τ).loc main_arg0)) (m ((c : Thread nD τ).loc main_arg1)) (m ((c : Thread nD τ).loc main_arg2)) (m ((c : Thread nD τ).loc main_arg3)) (((cfg0.win 4).blk t).view.emb y)
    unfold G
    rw [hi0, hi2, quot_shift _ _ _ hden 0]

/-- An index of the result is in point `t`'s block iff each coordinate is in the block's range on its axis. -/
theorem mem_blk (t : Fin cfg0.N) (i : S32x1x512.Idx) :
    i ∈ ((cfg0.win 4).blk t).view.set ↔ ∀ a : Fin 3, win0_4.index t a * S1x1x512.size a ≤ (i a).val
      ∧ (i a).val < win0_4.index t a * S1x1x512.size a + S1x1x512.size a := by
  show i ∈ ((View.whole main_v1).slice (win0_4.rect t)).set ↔ _
  rw [View.set_slice_whole, Rect.mem_set_unit]
  exact Iff.rfl

/-- Every entry of the result is in the block some flushing point writes. -/
theorem cover (i : S32x1x512.Idx) :
    ∃ t : Fin cfg0.N, (cfg0.win 4).flush t = true ∧ i ∈ ((cfg0.win 4).blk t).view.set := by
  have hi0 : (i 0).val < 32 := (i 0).isLt
  have hi1 : (i 1).val < 1 := (i 1).isLt
  have hi2 : (i 2).val < 512 := (i 2).isLt
  have hlt : 4 * (i 0).val + 3 < cfg0.N := by rw [show cfg0.N = 128 from N_0]; omega
  refine ⟨⟨4 * (i 0).val + 3, hlt⟩, (flush0_4 _).mpr (by show (4 * (i 0).val + 3) % 4 = 3; omega), ?_⟩
  obtain ⟨-, -, -, -, -, -, -, -, -, -, -, -, e0, e1, e2⟩ := idx_facts ⟨4 * (i 0).val + 3, hlt⟩
  rw [mem_blk]
  intro a
  match a with
  | ⟨0, _⟩ =>
    show win0_4.index _ (0 : Fin 3) * 1 ≤ (i 0).val ∧ (i 0).val < win0_4.index _ (0 : Fin 3) * 1 + 1
    rw [e0]; show (4 * (i 0).val + 3) / 4 * 1 ≤ (i 0).val ∧ (i 0).val < (4 * (i 0).val + 3) / 4 * 1 + 1; omega
  | ⟨1, _⟩ =>
    show win0_4.index _ (1 : Fin 3) * 1 ≤ (i 1).val ∧ (i 1).val < win0_4.index _ (1 : Fin 3) * 1 + 1
    rw [e1]; omega
  | ⟨2, _⟩ =>
    show win0_4.index _ (2 : Fin 3) * 512 ≤ (i 2).val ∧ (i 2).val < win0_4.index _ (2 : Fin 3) * 512 + 512
    rw [e2]; omega

/-- THE RESULT ARRAY after the run is `G` of the arguments. -/
theorem final (c : Dev nD) (hr : RealArgs m c) (hd : DenNe m c) : (dats m 0 c).arrAt 4 cfg0.N = Gc m c :=
  (dats m 0 c).arrAt_eq_of_cover 4 (Gc m c) (fun t hf => flushed_eq m c hr hd t hf) cover

/-- The kernel's run: it terminates without a fault, the result array is `G` of the arguments, the arguments unchanged. -/
theorem run (hr : ∀ c, RealArgs m c) (hd : ∀ c, DenNe m c) :
    θ_run defs (onTc (τ := τ) (main (F := Ideal))) ⟨m, fun _ => 0, ρ⟩ fun r => ∀ c : Dev nD,
      r.2.mem ((c : Thread nD τ).loc main_v1) = Gc m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hr c) (hd c)), (h c).2⟩) (run_blocks m ρ)

end Cert.KernelIdeal.AttnValue

end
-- ==== Proof.AttnReference.lean ====
/-
  The reference's result array is the function G of the four arguments (AttnResult), when their entries are real and the
  divisor of each row's last renormalisation is not zero.

  Row b, read stage by stage: the scores (q·key_j)/D · trust_j are the real numbers s_j — the division by the reference's
  own constant D is the product with the kernel's named scale 1/D, and the division by the temperature 1 changes nothing —;
  their maximum from −∞ over the 8192 keys is some real μ; the exponentials e^{s_j − μ} are real and so is their total Z > 0;
  the weights e^{s_j − μ}/Z · trust_j are the doubly normalised weights of AttnSpec and their total is the real S; dividing by
  S ≠ 0 and summing against a column of the values gives, by the quotient law, the quotient of the running totals at any shift.
-/
import proofs.«177233_j33681133535371_2_alg».proof.Proof.Gen.ReferenceIdeal.Read
import proofs.«177233_j33681133535371_2_alg».proof.Proof.AttnResult
import Idealize.ShloMosaic.Lib.ValueIdx
import Idealize.ShloMosaic.PureOps.Ideal.Laws

set_option maxRecDepth 16384

open scoped BigOperators

noncomputable section

namespace Cert.ReferenceIdeal.AttnRef

open Cert.ReferenceIdeal Cert.ReferenceIdeal.Gen Cert.ReferenceIdeal.Read Cert.AttnSpec
open Idealize.ShloMosaic Idealize.ShloMosaic.ValueIdx

local macro "idx3" : tactic =>
  `(tactic| (funext a; apply Fin.ext; match a with | ⟨0, _⟩ => rfl | ⟨1, _⟩ => rfl | ⟨2, _⟩ => rfl))
local macro "idx2" : tactic =>
  `(tactic| (funext a; apply Fin.ext; match a with | ⟨0, _⟩ => rfl | ⟨1, _⟩ => rfl))

/-! ## The reference's constants -/

/-- The reference's divisor D. -/
theorem ofBits_D : Ideal.ofBits .f32 0x41B504F3#32 = ((11863283 / 524288 : ℝ) : EReal) := by
  simp [Ideal.ofBits, Ideal.ieee, -EReal.coe_mul]; norm_num

/-- The temperature 1. -/
theorem ofBits_one : Ideal.ofBits .f32 0x3F800000#32 = ((1 : ℝ) : EReal) := by
  simp [Ideal.ofBits, Ideal.ieee, -EReal.coe_mul]; norm_num

theorem ofBits_negInf : Ideal.ofBits .f32 0xFF800000#32 = (⊥ : EReal) := by simp [Ideal.ofBits, Ideal.ieee]

variable (a0 : (⟨S32x16x512, .f32⟩ : BufTy).Contents (Elt Ideal)) (a1 a2 : (⟨S32x8192x512, .f32⟩ : BufTy).Contents (Elt Ideal)) (a3 : (⟨S32x1x8192, .f32⟩ : BufTy).Contents (Elt Ideal))

/-! ## Row b, stage by stage -/

/-- The scores. -/
theorem score_eq (hr0 : ∀ i, ∃ r : ℝ, a0 i = (r : EReal)) (hr1 : ∀ i, ∃ r : ℝ, a1 i = (r : EReal))
    (hr3 : ∀ i, ∃ r : ℝ, a3 i = (r : EReal)) (b : Fin 32) (j : Fin 8192) :
    val_main_v6 (F := Ideal) a0 a1 a3 (ix3 b (0 : Fin 1) j) = ((sN a0 a1 a3 b j.val : ℝ) : EReal) := by
  have hj := j.isLt
  rw [val_main_v6_apply, val_main_v4_apply, val_main_v3_apply, val_main_v1_apply, val_main_v2_apply, val_main_v5_apply,
    val_main_cst_apply, val_main_cst_0_apply]
  simp only [Ideal.hostDivf_def, Ideal.mulf_def, Ideal.ofBits_def, ofBits_D, ofBits_one]
  have e : ∀ k : Fin 512, val_main_v0 (F := Ideal) a0 (lidx_main_v1 (ix3 b (0 : Fin 1) j) k)
        * a1 (ridx_main_v1 (ix3 b (0 : Fin 1) j) k)
      = (((a0 (ix3 b (0 : Fin 16) k)).toReal * (a1 (ix3 b j k)).toReal : ℝ) : EReal) := fun k => by
    rw [val_main_v0_apply, show idx_main_v0 (lidx_main_v1 (ix3 b (0 : Fin 1) j) k) = ix3 b (0 : Fin 16) k from by idx3,
      show ridx_main_v1 (ix3 b (0 : Fin 1) j) k = ix3 b j k from by idx3, EReal.coe_mul,
      coe_toReal_of_real (hr0 _), coe_toReal_of_real (hr1 _)]
  rw [Finset.sum_congr rfl fun k _ => e k, ← coe_sum, Ideal.div_coe (by norm_num : (11863283 / 524288 : ℝ) ≠ 0),
    ← EReal.coe_mul, ← coe_toReal_of_real (hr3 (ix3 b (0 : Fin 1) j)), ← EReal.coe_mul,
    Ideal.div_coe (by norm_num : (1 : ℝ) ≠ 0), ← EReal.coe_mul]
  refine congrArg _ ?_
  unfold sN cR
  rw [dif_pos hj]
  simp only [Fin.eta]
  rw [one_div_one, mul_one, Finset.sum_mul]
  refine congrArg (· * (a3 (ix3 b (0 : Fin 1) j)).toReal) (Finset.sum_congr rfl fun k _ => ?_)
  ring

/-- The trust weights. -/
theorem weight_eq (hr3 : ∀ i, ∃ r : ℝ, a3 i = (r : EReal)) (b : Fin 32) (j : Fin 8192) :
    a3 (ix3 b (0 : Fin 1) j) = ((wN a3 b j.val : ℝ) : EReal) := by
  unfold wN; rw [dif_pos j.isLt]; simp only [Fin.eta]; exact (coe_toReal_of_real (hr3 _)).symm

/-- The values. -/
theorem value_eq (hr2 : ∀ i, ∃ r : ℝ, a2 i = (r : EReal)) (b : Fin 32) (j : Fin 8192) (d : Fin 512) :
    a2 (ix3 b j d) = ((uN a2 b d j.val : ℝ) : EReal) := by
  unfold uN; rw [dif_pos j.isLt]; simp only [Fin.eta]; exact (coe_toReal_of_real (hr2 _)).symm

/-- The row's maximum is a real number. -/
theorem rowmax_real (hr0 : ∀ i, ∃ r : ℝ, a0 i = (r : EReal)) (hr1 : ∀ i, ∃ r : ℝ, a1 i = (r : EReal))
    (hr3 : ∀ i, ∃ r : ℝ, a3 i = (r : EReal)) (b : Fin 32) :
    ∃ μ : ℝ, val_main_v9 (F := Ideal) a0 a1 a3 (ix2 b (0 : Fin 1)) = (μ : EReal) := by
  have hR : S32x1x8192.Reduces [2] S32x1 := by decide
  obtain ⟨r, hr⟩ := max_bot_fold_real (Finset.univ : Finset (Fin 8192)) Finset.univ_nonempty
    (fun k => sN a0 a1 a3 b k.val)
  refine ⟨r, Eq.trans ?_ hr⟩
  rw [val_main_v9_apply, val_main_v8_apply, val_main_cst_2_apply]
  unfold val_main_v7
  rw [Host.reduce_eq_fold_single FloatOps.maximumf _ _ reducesTo_S32x1x8192_S32x1_d2 hR h_S_]
  have e : (val_main_v6 (F := Ideal) a0 a1 a3 ∘ hR.lift (ix2 b (0 : Fin 1)))
      = fun k : Fin 8192 => ((sN a0 a1 a3 b k.val : ℝ) : EReal) := funext fun k => by
    show val_main_v6 (F := Ideal) a0 a1 a3 (hR.lift (ix2 b (0 : Fin 1)) k) = _
    rw [show hR.lift (ix2 b (0 : Fin 1)) k = ix3 b (0 : Fin 1) k from by idx3]
    exact score_eq a0 a1 a3 hr0 hr1 hr3 b k
  exact congrArg₂ max ofBits_negInf
    (congrArg₂ (fun z f => (Finset.univ : Finset (Fin 8192)).fold max z f) ofBits_negInf e)

end Cert.ReferenceIdeal.AttnRef

end
-- ==== Proof.LibRealOfTest.lean ====
/-
  General lemmas: a passed test "every |entry| < +inf" makes every entry of an array a real number.

  A finiteness precondition is printed, per float argument, as: take absolute values, compare each with the
  scalar +inf (the word 0x7F800000) spread over the argument's shape, and reduce the one-bit results by "and"
  into a single bit. Over the extended reals |v| = max v (−v) is +inf exactly at the two infinities, so the
  comparison holds at an entry exactly when the entry is a real number; and a reduction by "and" into a single
  result that is 1 had a 1 at every index. Any shape, any reduced axes.
-/
import Idealize.ShloMosaic.Lib.ReduceAll
import Idealize.ShloMosaic.Lib.ValueIdx
import Idealize.ShloMosaic.PureOps.Ideal

noncomputable section

namespace Cert.LibRealOfTest

open Idealize.ShloMosaic Idealize.ShloMosaic.ValueIdx

/-- The scalar shape has one index. -/
instance : Subsingleton (⟨0, ![]⟩ : Shape).Idx := ⟨fun a b => funext fun d => d.elim0⟩

/-- The bound of the test is +inf. -/
theorem posInf_f32 : Ideal.ofBits .f32 0x7F800000#32 = (⊤ : EReal) := by simp [Ideal.ofBits, Ideal.ieee]

/-- An extended real whose absolute value is below +inf is a real number. -/
theorem real_of_test (v : EReal) (h : Ideal.cmp .olt (max v (-v)) (Ideal.ofBits .f32 0x7F800000#32) = 1#1) :
    ∃ r : ℝ, v = r := by
  rw [posInf_f32] at h
  induction v using EReal.rec with
  | bot => simp [Ideal.cmp] at h
  | coe r => exact ⟨r, rfl⟩
  | top => simp [Ideal.cmp] at h

/-- One argument's test, passed, makes every entry of that argument real. -/
theorem real_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (hpos : 0 < (⟨0, ![]⟩ : Shape).numel)
    (h : Host.reduce IntOp.andi
      (cmpf .olt (Host.absf (F := Ideal) a) (broadcastInDim s ![] hb (constant (F := Ideal) ⟨0, ![]⟩ .f32 0x7F800000#32)))
      (constantI ⟨0, ![]⟩ 1 1#1) hr hpos ix0 = 1#1) (i : s.Idx) : ∃ r : ℝ, a i = r :=
  real_of_test (a i) (Host.reduce_andi_all _ _ hr hpos ix0 h i)

end Cert.LibRealOfTest

end
-- ==== Proof.AttnReferenceRow.lean ====
/-
  The rest of a row of the reference: the exponentials at the row's real maximum μ, their total, the doubly normalised
  weights and their total S, and the result row as G when S is not zero; then the whole result array; and what the
  precondition says once read: every entry of the four arguments is a real number and every row's S is not zero.
-/
import proofs.«177233_j33681133535371_2_alg».proof.Proof.AttnReference
import proofs.«177233_j33681133535371_2_alg».proof.Proof.LibRealOfTest
import Idealize.ShloMosaic.Lib.Affine
import Idealize.ShloMosaic.Lib.ReduceAll

set_option maxRecDepth 16384

open scoped BigOperators

noncomputable section

namespace Cert.ReferenceIdeal.AttnRef

open Cert.ReferenceIdeal Cert.ReferenceIdeal.Gen Cert.ReferenceIdeal.Read Cert.AttnSpec
open Idealize.ShloMosaic Idealize.ShloMosaic.ValueIdx

local macro "idx3" : tactic =>
  `(tactic| (funext a; apply Fin.ext; match a with | ⟨0, _⟩ => rfl | ⟨1, _⟩ => rfl | ⟨2, _⟩ => rfl))
local macro "idx2" : tactic =>
  `(tactic| (funext a; apply Fin.ext; match a with | ⟨0, _⟩ => rfl | ⟨1, _⟩ => rfl))

variable (a0 : (⟨S32x16x512, .f32⟩ : BufTy).Contents (Elt Ideal)) (a1 a2 : (⟨S32x8192x512, .f32⟩ : BufTy).Contents (Elt Ideal)) (a3 : (⟨S32x1x8192, .f32⟩ : BufTy).Contents (Elt Ideal))

/-- The exponentials at the row's maximum. -/
theorem exp_eq (hr0 : ∀ i, ∃ r : ℝ, a0 i = (r : EReal)) (hr1 : ∀ i, ∃ r : ℝ, a1 i = (r : EReal)) (hr3 : ∀ i, ∃ r : ℝ, a3 i = (r : EReal)) (b : Fin 32) (μ : ℝ) (hμ : val_main_v9 (F := Ideal) a0 a1 a3 (ix2 b (0 : Fin 1)) = (μ : EReal)) (j : Fin 8192) :
    val_main_v13 (F := Ideal) a0 a1 a3 (ix3 b (0 : Fin 1) j) = ((Real.exp (sN a0 a1 a3 b j.val - μ) : ℝ) : EReal) := by
  rw [val_main_v13_apply, val_main_v12_apply, val_main_v11_apply, val_main_v10_apply,
    show idx_main_v10 (idx_main_v11 (ix3 b (0 : Fin 1) j)) = ix2 b (0 : Fin 1) from by idx2, hμ,
    score_eq a0 a1 a3 hr0 hr1 hr3 b j]
  simp only [Ideal.hostUnary_exp_def, Ideal.subf_def]
  rw [← EReal.coe_sub, Ideal.exp_coe]

/-- Their total. -/
theorem norm_eq (hr0 : ∀ i, ∃ r : ℝ, a0 i = (r : EReal)) (hr1 : ∀ i, ∃ r : ℝ, a1 i = (r : EReal)) (hr3 : ∀ i, ∃ r : ℝ, a3 i = (r : EReal)) (b : Fin 32) (μ : ℝ) (hμ : val_main_v9 (F := Ideal) a0 a1 a3 (ix2 b (0 : Fin 1)) = (μ : EReal)) :
    val_main_v14 (F := Ideal) a0 a1 a3 (ix2 b (0 : Fin 1))
      = ((∑ i ∈ Finset.range 8192, Real.exp (sN a0 a1 a3 b i - μ) : ℝ) : EReal) := by
  rw [val_main_v14_apply, val_main_cst_3_apply]
  simp only [Ideal.ofBits_def, Ideal.ofBits_zero_f32, zero_add]
  rw [← Fin.sum_univ_eq_sum_range (fun i => Real.exp (sN a0 a1 a3 b i - μ)) 8192, coe_sum]
  refine Finset.sum_congr rfl fun k _ => ?_
  rw [show idx_main_v14 (ix2 b (0 : Fin 1)) k = ix3 b (0 : Fin 1) k from by idx3]
  exact exp_eq a0 a1 a3 hr0 hr1 hr3 b μ hμ k

/-- The doubly normalised weights. -/
theorem attn_eq (hr0 : ∀ i, ∃ r : ℝ, a0 i = (r : EReal)) (hr1 : ∀ i, ∃ r : ℝ, a1 i = (r : EReal)) (hr3 : ∀ i, ∃ r : ℝ, a3 i = (r : EReal)) (b : Fin 32) (μ : ℝ) (hμ : val_main_v9 (F := Ideal) a0 a1 a3 (ix2 b (0 : Fin 1)) = (μ : EReal)) (j : Fin 8192) :
    val_main_v18 (F := Ideal) a0 a1 a3 (ix3 b (0 : Fin 1) j) = ((attn (sN a0 a1 a3 b) (wN a3 b) μ 8192 j.val : ℝ) : EReal) := by
  have hZ := (norm_pos (sN a0 a1 a3 b) μ (by norm_num : 0 < 8192)).ne'
  rw [val_main_v18_apply, val_main_v17_apply, val_main_v16_apply, val_main_v15_apply,
    show idx_main_v15 (idx_main_v16 (ix3 b (0 : Fin 1) j)) = ix2 b (0 : Fin 1) from by idx2,
    norm_eq a0 a1 a3 hr0 hr1 hr3 b μ hμ, exp_eq a0 a1 a3 hr0 hr1 hr3 b μ hμ j, weight_eq a3 hr3 b j]
  simp only [Ideal.hostDivf_def, Ideal.mulf_def]
  rw [div_coe_coe _ hZ, ← EReal.coe_mul]
  rfl

/-- Their total, the divisor of the last renormalisation. -/
theorem total_eq (hr0 : ∀ i, ∃ r : ℝ, a0 i = (r : EReal)) (hr1 : ∀ i, ∃ r : ℝ, a1 i = (r : EReal)) (hr3 : ∀ i, ∃ r : ℝ, a3 i = (r : EReal)) (b : Fin 32) (μ : ℝ) (hμ : val_main_v9 (F := Ideal) a0 a1 a3 (ix2 b (0 : Fin 1)) = (μ : EReal)) :
    val_main_v19 (F := Ideal) a0 a1 a3 (ix2 b (0 : Fin 1))
      = ((∑ j ∈ Finset.range 8192, attn (sN a0 a1 a3 b) (wN a3 b) μ 8192 j : ℝ) : EReal) := by
  rw [val_main_v19_apply, val_main_cst_4_apply]
  simp only [Ideal.ofBits_def, Ideal.ofBits_zero_f32, zero_add]
  rw [← Fin.sum_univ_eq_sum_range (fun j => attn (sN a0 a1 a3 b) (wN a3 b) μ 8192 j) 8192, coe_sum]
  refine Finset.sum_congr rfl fun k _ => ?_
  rw [show idx_main_v19 (ix2 b (0 : Fin 1)) k = ix3 b (0 : Fin 1) k from by idx3]
  exact attn_eq a0 a1 a3 hr0 hr1 hr3 b μ hμ k

/-- A row of the result. -/
theorem result_row (hr0 : ∀ i, ∃ r : ℝ, a0 i = (r : EReal)) (hr1 : ∀ i, ∃ r : ℝ, a1 i = (r : EReal)) (hr3 : ∀ i, ∃ r : ℝ, a3 i = (r : EReal)) (hr2 : ∀ i, ∃ r : ℝ, a2 i = (r : EReal)) (b : Fin 32) (μ : ℝ) (hμ : val_main_v9 (F := Ideal) a0 a1 a3 (ix2 b (0 : Fin 1)) = (μ : EReal))
    (hS : ∑ j ∈ Finset.range 8192, attn (sN a0 a1 a3 b) (wN a3 b) μ 8192 j ≠ 0) (d : Fin 512) :
    val_main_v23 (F := Ideal) a0 a1 a2 a3 (ix3 b (0 : Fin 1) d) = G a0 a1 a2 a3 (ix3 b (0 : Fin 1) d) := by
  rw [val_main_v23_apply]
  have e : ∀ k : Fin 8192, val_main_v22 (F := Ideal) a0 a1 a3 (lidx_main_v23 (ix3 b (0 : Fin 1) d) k)
        * a2 (ridx_main_v23 (ix3 b (0 : Fin 1) d) k)
      = ((attn (sN a0 a1 a3 b) (wN a3 b) μ 8192 k.val * (1 / ∑ j ∈ Finset.range 8192, attn (sN a0 a1 a3 b) (wN a3 b) μ 8192 j) * uN a2 b d k.val : ℝ) : EReal) :=
    fun k => by
      rw [show lidx_main_v23 (ix3 b (0 : Fin 1) d) k = ix3 b (0 : Fin 1) k from by idx3,
        show ridx_main_v23 (ix3 b (0 : Fin 1) d) k = ix3 b k d from by idx3,
        val_main_v22_apply, val_main_v21_apply, val_main_v20_apply,
        show idx_main_v20 (idx_main_v21 (ix3 b (0 : Fin 1) k)) = ix2 b (0 : Fin 1) from by idx2,
        total_eq a0 a1 a3 hr0 hr1 hr3 b μ hμ, attn_eq a0 a1 a3 hr0 hr1 hr3 b μ hμ k, value_eq a2 hr2 b k d]
      simp only [Ideal.hostDivf_def]
      rw [div_coe_coe _ hS, ← EReal.coe_mul]
  rw [Finset.sum_congr rfl fun k _ => e k, ← coe_sum,
    Fin.sum_univ_eq_sum_range (fun k => attn (sN a0 a1 a3 b) (wN a3 b) μ 8192 k
      * (1 / ∑ j ∈ Finset.range 8192, attn (sN a0 a1 a3 b) (wN a3 b) μ 8192 j) * uN a2 b d k) 8192]
  show _ = ((num (sN a0 a1 a3 b) (wN a3 b) (uN a2 b d) 0 8192 * (1 / den (sN a0 a1 a3 b) (wN a3 b) 0 8192) : ℝ) : EReal)
  rw [quotient_law (sN a0 a1 a3 b) (wN a3 b) (uN a2 b d) 0 μ (by norm_num) hS]

/-- THE REFERENCE'S RESULT ARRAY is `G` of the arguments. -/
theorem result_eq (hr0 : ∀ i, ∃ r : ℝ, a0 i = (r : EReal)) (hr1 : ∀ i, ∃ r : ℝ, a1 i = (r : EReal)) (hr3 : ∀ i, ∃ r : ℝ, a3 i = (r : EReal)) (hr2 : ∀ i, ∃ r : ℝ, a2 i = (r : EReal))
    (hS : ∀ b : Fin 32, val_main_v19 (F := Ideal) a0 a1 a3 (ix2 b (0 : Fin 1)) ≠ 0) :
    val_main_v23 (F := Ideal) a0 a1 a2 a3 = G a0 a1 a2 a3 := by
  funext i
  have h1 : (i 1).val < 1 := (i 1).isLt
  have hi : i = ix3 (⟨(i 0).val, (i 0).isLt⟩ : Fin 32) (0 : Fin 1) (⟨(i 2).val, (i 2).isLt⟩ : Fin 512) := by
    funext a; apply Fin.ext
    match a with
    | ⟨0, _⟩ => rfl
    | ⟨1, _⟩ => show (i 1).val = 0; omega
    | ⟨2, _⟩ => rfl
  rw [hi]
  obtain ⟨μ, hμ⟩ := rowmax_real a0 a1 a3 hr0 hr1 hr3 (⟨(i 0).val, (i 0).isLt⟩ : Fin 32)
  exact result_row a0 a1 a2 a3 hr0 hr1 hr3 hr2 (⟨(i 0).val, (i 0).isLt⟩ : Fin 32) μ hμ
    (fun h0 => hS (⟨(i 0).val, (i 0).isLt⟩ : Fin 32) (by
      rw [total_eq a0 a1 a3 hr0 hr1 hr3 (⟨(i 0).val, (i 0).isLt⟩ : Fin 32) μ hμ, h0, EReal.coe_zero]))
    (⟨(i 2).val, (i 2).isLt⟩ : Fin 512)

/-- The running total at shift 0 is not zero when the row's divisor is not. -/
theorem den_ne (hr0 : ∀ i, ∃ r : ℝ, a0 i = (r : EReal)) (hr1 : ∀ i, ∃ r : ℝ, a1 i = (r : EReal)) (hr3 : ∀ i, ∃ r : ℝ, a3 i = (r : EReal)) (b : Fin 32) (hS : val_main_v19 (F := Ideal) a0 a1 a3 (ix2 b (0 : Fin 1)) ≠ 0) :
    den (sN a0 a1 a3 b) (wN a3 b) 0 8192 ≠ 0 := by
  obtain ⟨μ, hμ⟩ := rowmax_real a0 a1 a3 hr0 hr1 hr3 b
  have hS' : ∑ j ∈ Finset.range 8192, attn (sN a0 a1 a3 b) (wN a3 b) μ 8192 j ≠ 0 := fun h0 => hS (by
    rw [total_eq a0 a1 a3 hr0 hr1 hr3 b μ hμ, h0, EReal.coe_zero])
  exact den_ne_zero_shift _ _ (den_ne_zero_of_attn _ _ μ hS') 0

end Cert.ReferenceIdeal.AttnRef

end
-- ==== Proof.AttnPre.lean ====
/-
  What the precondition says. It is the conjunction of five tests, each reduced by "and" to one bit: for each of the four
  arguments, that every entry's absolute value is below +∞ — over the extended reals, that every entry is a real number —,
  and that in every batch row the divisor of the reference's last renormalisation, computed by the reference's own
  operations from the same arguments, is different from zero.
-/
import proofs.«177233_j33681133535371_2_alg».proof.Pre_finite_inputs
import proofs.«177233_j33681133535371_2_alg».proof.Proof.Gen.Pre_finite_inputs
import proofs.«177233_j33681133535371_2_alg».proof.Proof.Gen.ReferenceIdeal.Read
import proofs.«177233_j33681133535371_2_alg».proof.Proof.LibRealOfTest
import Idealize.ShloMosaic.Lib.Affine
import Idealize.ShloMosaic.Lib.ReduceAll
import Idealize.ShloMosaic.Lib.ValueIdx
import Idealize.ShloMosaic.PureOps.Ideal.Laws

set_option maxRecDepth 16384

noncomputable section

namespace Cert.AttnPre

open Idealize.ShloMosaic Idealize.ShloMosaic.ValueIdx Cert.ReferenceIdeal.Read

/-- A passed "different from" test of two extended reals. -/
theorem ne_of_une (x y : EReal) (h : Ideal.cmp .une x y = 1#1) : x ≠ y := by
  intro e; subst e; simp [Ideal.cmp] at h

theorem decode (a0 : FVec Ideal Cert.Pre_finite_inputs.S32x16x512 .f32) (a1 a2 : FVec Ideal Cert.Pre_finite_inputs.S32x8192x512 .f32) (a3 : FVec Ideal Cert.Pre_finite_inputs.S32x1x8192 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal))
      ∧ ∀ b : Fin 32, val_main_v19 (F := Ideal) a0 a1 a3 (ix2 b (0 : Fin 1)) ≠ 0 := by
  have h' := congrFun h ix0
  dsimp only [Cert.Pre_finite_inputs.fn, Cert.Pre_finite_inputs.fn_part1, Cert.Pre_finite_inputs.fn_part2] at h'
  simp only [andi] at h'
  rw [IntOp.andi_eq_one, IntOp.andi_eq_one, IntOp.andi_eq_one, IntOp.andi_eq_one] at h'
  obtain ⟨⟨⟨⟨h0, h1⟩, h2⟩, h3⟩, h4⟩ := h'
  refine ⟨LibRealOfTest.real_of_all a0 _ _ _ h0, LibRealOfTest.real_of_all a1 _ _ _ h1,
    LibRealOfTest.real_of_all a2 _ _ _ h2, LibRealOfTest.real_of_all a3 _ _ _ h3, fun b hzero => ?_⟩
  have hc := Host.reduce_andi_all _ _ _ _ ix0 h4 (ix3 b (0 : Fin 1) (0 : Fin 1))
  rw [cmpf_apply, Ideal.cmpf_def] at hc
  refine ne_of_une _ _ hc ?_
  show val_main_v20 (F := Ideal) a0 a1 a3 (ix3 b (0 : Fin 1) (0 : Fin 1)) = Ideal.ofBits .f32 0x00000000#32
  rw [val_main_v20_apply,
    show idx_main_v20 (ix3 b (0 : Fin 1) (0 : Fin 1)) = ix2 b (0 : Fin 1) from by
      funext a; apply Fin.ext; match a with | ⟨0, _⟩ => rfl | ⟨1, _⟩ => rfl,
    hzero, Ideal.ofBits_zero_f32]

end Cert.AttnPre

end
-- ==== Proof.lean ====
/-
  Single-query attention with trust reweighting: the Pallas kernel against its jnp reference, over the extended reals.

  For each of the 32 batch rows the programs take query position 0, form the 8192 scores s_j = (q · key_j) / D · trust_j
  (D the reference's constant for √512; the kernel multiplies the query by a constant it names 1/D, so the two scores are the
  same number), and return, for each of the 512 value columns,
        ( ∑_j e^{s_j − μ} · trust_j · value_{j d} )  /  ( ∑_j e^{s_j − μ} · trust_j ).
  The reference takes μ the row's maximum, normalises the exponentials by their total, multiplies by the trust weights, and
  normalises once more by the total S of the result. The kernel walks the keys in four tiles of 2048, keeping a running
  maximum and the two running totals rescaled to it (an online softmax), and divides once at the end. The first
  normaliser cancels, and the quotient does not depend on μ, so the two agree whenever all entries are real numbers and the
  second normaliser S is not zero — which is what the precondition says. Where S = 0 the reference itself divides by zero.

  The modules: AttnSpec (the running sums, their rescaling, the quotient law, on the reals and carried into the extended
  reals), AttnResult (the common result function G), AttnTile / AttnStep (one grid step of the kernel body read entry by
  entry, and what it does to the running triple), AttnPieces (what each control case of the body stores), AttnBlocks (where
  a step's blocks sit in the arrays), AttnKernel / AttnKernelRun (the invariant over the 128 grid steps, the output blocks,
  the kernel's run), AttnReference / AttnReferenceRow (the reference stage by stage), AttnPre (the precondition read).
-/
import proofs.«177233_j33681133535371_2_alg».proof.Defs
import proofs.«177233_j33681133535371_2_alg».proof.Proof.Gen.Kernel
import proofs.«177233_j33681133535371_2_alg».proof.Proof.Gen.Kernel.Skeleton
import proofs.«177233_j33681133535371_2_alg».proof.Proof.Gen.Kernel.Launch
import proofs.«177233_j33681133535371_2_alg».proof.Proof.Gen.Kernel.Points
import proofs.«177233_j33681133535371_2_alg».proof.Proof.Gen.Kernel.Frame
import proofs.«177233_j33681133535371_2_alg».proof.Proof.Gen.KernelIdeal
import proofs.«177233_j33681133535371_2_alg».proof.Proof.Gen.KernelIdeal.Skeleton
import proofs.«177233_j33681133535371_2_alg».proof.Proof.Gen.KernelIdeal.Launch
import proofs.«177233_j33681133535371_2_alg».proof.Proof.Gen.KernelIdeal.Points
import proofs.«177233_j33681133535371_2_alg».proof.Proof.Gen.KernelIdeal.Frame
import proofs.«177233_j33681133535371_2_alg».proof.Proof.Gen.ReferenceIdeal
import proofs.«177233_j33681133535371_2_alg».proof.Proof.Gen.Pre_finite_inputs
import proofs.«177233_j33681133535371_2_alg».proof.Proof.Gen.KernelIdeal.Value
import proofs.«177233_j33681133535371_2_alg».proof.Proof.Gen.ReferenceIdeal.Run
import proofs.«177233_j33681133535371_2_alg».proof.Proof.Gen.ReferenceIdeal.Read
import proofs.«177233_j33681133535371_2_alg».proof.Proof.AttnKernelRun
import proofs.«177233_j33681133535371_2_alg».proof.Proof.AttnReferenceRow
import proofs.«177233_j33681133535371_2_alg».proof.Proof.AttnPre
import Idealize.ShloMosaic.Adequacy
import Idealize.ShloMosaic.Init
import Idealize.ShloMosaic.PureOps.IdealRules

noncomputable section

namespace Cert.Proof

open Idealize.ShloMosaic Idealize.ShloMosaic.TcCoe Idealize.SL.Sem

/-- The three programs run to the end without a fault and leave their arguments as they were. -/
theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the kernel's scale constant is read as the exact reciprocal 1/D of the reference's
    divisor, the fraction whose nearest f32 is the printed word. -/
theorem preserves : Cert.preserves_Kernel_KernelIdeal :=
  IdealRules.named_const.statement Cert.KernelIdeal.κ "inv_sqrt_dim" .f32 0x3D3504F3#32
    ((524288 / 11863283 : ℝ) : EReal) rfl

/-- From memories agreeing on the arguments, with all entries real and every row's second normaliser nonzero, both programs
    end with the result array `G` of the arguments. -/
theorem algebraic : Cert.algebraic_KernelIdeal_ReferenceIdeal := by
  intro m ρ m' ρ' hpre hagree
  have hdec := fun c : Dev Cert.KernelIdeal.nD => Cert.AttnPre.decode _ _ _ _ (hpre c)
  refine ⟨fun c => Cert.KernelIdeal.AttnValue.Gc m c,
    Cert.KernelIdeal.AttnValue.run m ρ
      (fun c => ⟨(hdec c).1, (hdec c).2.1, (hdec c).2.2.1, (hdec c).2.2.2.1⟩)
      (fun c b => Cert.ReferenceIdeal.AttnRef.den_ne _ _ _ (hdec c).1 (hdec c).2.1 (hdec c).2.2.2.1 b
        ((hdec c).2.2.2.2 b)), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2.1, (hagree c).2.2.1, (hagree c).2.2.2]
  exact Cert.ReferenceIdeal.AttnRef.result_eq _ _ _ _ (hdec c).1 (hdec c).2.1 (hdec c).2.2.2.1 (hdec c).2.2.1
    (hdec c).2.2.2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
